-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg8 : FVec F S128x128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S40000x128 .f32) (main_arg1 : IVec S640000 32) (main_arg2 : IVec S640000 32) (main_arg3 : IVec S640000 32) (main_arg4 : IVec S640000 32) (main_arg5 : FVec F S128x128 .f32) (main_arg6 : FVec F S128x128 .f32) (main_arg7 : FVec F S128 .f32) (main_arg8 : FVec F S128x128 .f32) (main_arg9 : FVec F S128x128 .f32) (main_arg10 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg5
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_v13 main_v16
-- ==== Kernel.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S_ : Shape := ⟨0, ![]⟩
abbrev S40000 : Shape := ⟨1, ![40000]⟩
abbrev S640000x1 : Shape := ⟨2, ![640000, 1]⟩
abbrev S640000x128 : Shape := ⟨2, ![640000, 128]⟩
abbrev S40000x1 : Shape := ⟨2, ![40000, 1]⟩
abbrev S4000x128 : Shape := ⟨2, ![4000, 128]⟩
abbrev S1x128 : Shape := ⟨2, ![1, 128]⟩
abbrev S8000x128 : Shape := ⟨2, ![8000, 128]⟩
abbrev S8000x1 : Shape := ⟨2, ![8000, 1]⟩
abbrev S8000 : Shape := ⟨1, ![8000]⟩

abbrev nBuf : Space → Nat
  | .hbm => 77
  | .vmem => 24
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S640000, .i32⟩
  | .hbm, ⟨4, _⟩ => ⟨S640000, .i32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S_, .f32⟩
  | .hbm, ⟨12, _⟩ => ⟨S640000, .f32⟩
  | .hbm, ⟨13, _⟩ => ⟨S_, .f32⟩
  | .hbm, ⟨14, _⟩ => ⟨S40000, .f32⟩
  | .hbm, ⟨15, _⟩ => ⟨S640000x1, .i32⟩
  | .hbm, ⟨16, _⟩ => ⟨S40000, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S_, .f32⟩
  | .hbm, ⟨27, _⟩ => ⟨S40000x128, .f32⟩
  | .hbm, ⟨28, _⟩ => ⟨S640000x1, .i32⟩
  | .hbm, ⟨29, _⟩ => ⟨S40000x128, .f32⟩
  | .hbm, ⟨30, _⟩ => ⟨S_, .f32⟩
  | .hbm, ⟨31, _⟩ => ⟨S40000, .f32⟩
  | .hbm, ⟨32, _⟩ => ⟨S40000, .f32⟩
  | .hbm, ⟨33, _⟩ => ⟨S40000x1, .f32⟩
  | .hbm, ⟨34, _⟩ => ⟨S40000x128, .f32⟩
  | .hbm, ⟨35, _⟩ => ⟨S40000x128, .f32⟩
  | .hbm, ⟨36, _⟩ => ⟨S40000x128, .f32⟩
  | .hbm, ⟨37, _⟩ => ⟨S_, .i32⟩
  | .hbm, ⟨38, _⟩ => ⟨S640000, .i32⟩
  | .hbm, ⟨39, _⟩ => ⟨S640000, .i1⟩
  | .hbm, ⟨40, _⟩ => ⟨S_, .i32⟩
  | .hbm, ⟨41, _⟩ => ⟨S640000, .i32⟩
  | .hbm, ⟨42, _⟩ => ⟨S640000, .i32⟩
  | .hbm, ⟨43, _⟩ => ⟨S640000, .i32⟩
  | .hbm, ⟨44, _⟩ => ⟨S640000x1, .i32⟩
  | .hbm, ⟨45, _⟩ => ⟨S640000x128, .f32⟩
  | .hbm, ⟨46, _⟩ => ⟨S_, .f32⟩
  | .hbm, ⟨47, _⟩ => ⟨S40000x128, .f32⟩
  | .hbm, ⟨48, _⟩ => ⟨S640000x1, .i32⟩
  | .hbm, ⟨49, _⟩ => ⟨S40000x128, .f32⟩
  | .hbm, ⟨50, _⟩ => ⟨S_, .f32⟩
  | .hbm, ⟨51, _⟩ => ⟨S40000, .f32⟩
  | .hbm, ⟨52, _⟩ => ⟨S40000, .f32⟩
  | .hbm, ⟨53, _⟩ => ⟨S40000x1, .f32⟩
  | .hbm, ⟨54, _⟩ => ⟨S40000x128, .f32⟩
  | .hbm, ⟨55, _⟩ => ⟨S40000x128, .f32⟩
  | .hbm, ⟨56, _⟩ => ⟨S40000x128, .f32⟩
  | .hbm, ⟨57, _⟩ => ⟨S_, .i32⟩
  | .hbm, ⟨58, _⟩ => ⟨S640000, .i32⟩
  | .hbm, ⟨59, _⟩ => ⟨S640000, .i1⟩
  | .hbm, ⟨60, _⟩ => ⟨S_, .i32⟩
  | .hbm, ⟨61, _⟩ => ⟨S640000, .i32⟩
  | .hbm, ⟨62, _⟩ => ⟨S640000, .i32⟩
  | .hbm, ⟨63, _⟩ => ⟨S640000, .i32⟩
  | .hbm, ⟨64, _⟩ => ⟨S640000x1, .i32⟩
  | .hbm, ⟨65, _⟩ => ⟨S640000x128, .f32⟩
  | .hbm, ⟨66, _⟩ => ⟨S_, .i32⟩
  | .hbm, ⟨67, _⟩ => ⟨S640000, .i32⟩
  | .hbm, ⟨68, _⟩ => ⟨S640000, .i1⟩
  | .hbm, ⟨69, _⟩ => ⟨S_, .i32⟩
  | .hbm, ⟨70, _⟩ => ⟨S640000, .i32⟩
  | .hbm, ⟨71, _⟩ => ⟨S640000, .i32⟩
  | .hbm, ⟨72, _⟩ => ⟨S640000, .i32⟩
  | .hbm, ⟨73, _⟩ => ⟨S640000x1, .i32⟩
  | .hbm, ⟨74, _⟩ => ⟨S640000x128, .f32⟩
  | .hbm, ⟨75, _⟩ => ⟨S640000x1, .f32⟩
  | .hbm, ⟨76, _⟩ => ⟨S640000, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S4000x128, .f32⟩
  | .local _ .vmem, ⟨17, _⟩ => ⟨S4000x128, .f32⟩
  | .local _ .vmem, ⟨18, _⟩ => ⟨S8000x128, .f32⟩
  | .local _ .vmem, ⟨19, _⟩ => ⟨S8000x128, .f32⟩
  | .local _ .vmem, ⟨20, _⟩ => ⟨S8000x128, .f32⟩
  | .local _ .vmem, ⟨21, _⟩ => ⟨S8000x128, .f32⟩
  | .local _ .vmem, ⟨22, _⟩ => ⟨S8000x1, .f32⟩
  | .local _ .vmem, ⟨23, _⟩ => ⟨S8000x1, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_10 : Ref sig .tc := ⟨.hbm, 66, rfl⟩
abbrev main_v43 : Ref sig .tc := ⟨.hbm, 67, rfl⟩
abbrev main_v44 : Ref sig .tc := ⟨.hbm, 68, rfl⟩
abbrev main_c_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  reduces_S8000x128_S8000 : S8000x128.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  shapeCasts_S640000x1_S640000 : S640000x1.ShapeCasts S640000
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S40000x128.size a
  hwx0_1 : ∀ i : grid0.Coords, EltTy.bits .f32 = 32 ∨ (Rect.block (s := S40000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S40000x128.size a
  hwx0_5 : ∀ i : grid0.Coords, EltTy.bits .f32 = 32 ∨ (Rect.block (s := S40000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S40000x128.size a
  hwx1_1 : ∀ i : grid1.Coords, EltTy.bits .f32 = 32 ∨ (Rect.block (s := S40000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S40000x128.size a
  hwx1_5 : ∀ i : grid1.Coords, EltTy.bits .f32 = 32 ∨ (Rect.block (s := S40000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S640000x128.size a
  hwx2_0 : ∀ i : grid2.Coords, EltTy.bits .f32 = 32 ∨ (Rect.block (s := S640000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S640000x128.size a
  hwx2_1 : ∀ i : grid2.Coords, EltTy.bits .f32 = 32 ∨ (Rect.block (s := S640000x128) S8000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x1.size a ≤ S640000x1.size a
  hwx2_2 : ∀ i : grid2.Coords, EltTy.bits .f32 = 32 ∨ (Rect.block (s := S640000x1) S8000x1.size (cc2_transform_2 i) (hinb2_2 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S8000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩

abbrev nBuf : Space → Nat
  | .hbm => 105
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S640000, .i32⟩
  | .hbm, ⟨4, _⟩ => ⟨S640000, .i32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S_, .f32⟩
  | .hbm, ⟨21, _⟩ => ⟨S40000x128, .f32⟩
  | .hbm, ⟨22, _⟩ => ⟨S640000x1, .i32⟩
  | .hbm, ⟨23, _⟩ => ⟨S40000x128, .f32⟩
  | .hbm, ⟨24, _⟩ => ⟨S_, .f32⟩
  | .hbm, ⟨25, _⟩ => ⟨S640000, .f32⟩
  | .hbm, ⟨26, _⟩ => ⟨S_, .f32⟩
  | .hbm, ⟨27, _⟩ => ⟨S40000, .f32⟩
  | .hbm, ⟨28, _⟩ => ⟨S640000x1, .i32⟩
  | .hbm, ⟨29, _⟩ => ⟨S40000, .f32⟩
  | .hbm, ⟨30, _⟩ => ⟨S_, .f32⟩
  | .hbm, ⟨31, _⟩ => ⟨S40000, .f32⟩
  | .hbm, ⟨32, _⟩ => ⟨S40000, .f32⟩
  | .hbm, ⟨33, _⟩ => ⟨S40000x1, .f32⟩
  | .hbm, ⟨34, _⟩ => ⟨S40000x128, .f32⟩
  | .hbm, ⟨35, _⟩ => ⟨S40000x128, .f32⟩
  | .hbm, ⟨36, _⟩ => ⟨S40000x128, .f32⟩
  | .hbm, ⟨37, _⟩ => ⟨S40000x128, .f32⟩
  | .hbm, ⟨38, _⟩ => ⟨S40000x128, .f32⟩
  | .hbm, ⟨39, _⟩ => ⟨S1x128, .f32⟩
  | .hbm, ⟨40, _⟩ => ⟨S40000x128, .f32⟩
  | .hbm, ⟨41, _⟩ => ⟨S40000x128, .f32⟩
  | .hbm, ⟨42, _⟩ => ⟨S_, .f32⟩
  | .hbm, ⟨43, _⟩ => ⟨S40000x128, .f32⟩
  | .hbm, ⟨44, _⟩ => ⟨S40000x128, .f32⟩
  | .hbm, ⟨45, _⟩ => ⟨S_, .i32⟩
  | .hbm, ⟨46, _⟩ => ⟨S640000, .i32⟩
  | .hbm, ⟨47, _⟩ => ⟨S640000, .i1⟩
  | .hbm, ⟨48, _⟩ => ⟨S_, .i32⟩
  | .hbm, ⟨49, _⟩ => ⟨S640000, .i32⟩
  | .hbm, ⟨50, _⟩ => ⟨S640000, .i32⟩
  | .hbm, ⟨51, _⟩ => ⟨S640000, .i32⟩
  | .hbm, ⟨52, _⟩ => ⟨S640000x1, .i32⟩
  | .hbm, ⟨53, _⟩ => ⟨S640000x128, .f32⟩
  | .hbm, ⟨54, _⟩ => ⟨S_, .f32⟩
  | .hbm, ⟨55, _⟩ => ⟨S40000x128, .f32⟩
  | .hbm, ⟨56, _⟩ => ⟨S640000x1, .i32⟩
  | .hbm, ⟨57, _⟩ => ⟨S40000x128, .f32⟩
  | .hbm, ⟨58, _⟩ => ⟨S_, .f32⟩
  | .hbm, ⟨59, _⟩ => ⟨S640000, .f32⟩
  | .hbm, ⟨60, _⟩ => ⟨S_, .f32⟩
  | .hbm, ⟨61, _⟩ => ⟨S40000, .f32⟩
  | .hbm, ⟨62, _⟩ => ⟨S640000x1, .i32⟩
  | .hbm, ⟨63, _⟩ => ⟨S40000, .f32⟩
  | .hbm, ⟨64, _⟩ => ⟨S_, .f32⟩
  | .hbm, ⟨65, _⟩ => ⟨S40000, .f32⟩
  | .hbm, ⟨66, _⟩ => ⟨S40000, .f32⟩
  | .hbm, ⟨67, _⟩ => ⟨S40000x1, .f32⟩
  | .hbm, ⟨68, _⟩ => ⟨S40000x128, .f32⟩
  | .hbm, ⟨69, _⟩ => ⟨S40000x128, .f32⟩
  | .hbm, ⟨70, _⟩ => ⟨S40000x128, .f32⟩
  | .hbm, ⟨71, _⟩ => ⟨S40000x128, .f32⟩
  | .hbm, ⟨72, _⟩ => ⟨S40000x128, .f32⟩
  | .hbm, ⟨73, _⟩ => ⟨S1x128, .f32⟩
  | .hbm, ⟨74, _⟩ => ⟨S40000x128, .f32⟩
  | .hbm, ⟨75, _⟩ => ⟨S40000x128, .f32⟩
  | .hbm, ⟨76, _⟩ => ⟨S_, .i32⟩
  | .hbm, ⟨77, _⟩ => ⟨S640000, .i32⟩
  | .hbm, ⟨78, _⟩ => ⟨S640000, .i1⟩
  | .hbm, ⟨79, _⟩ => ⟨S_, .i32⟩
  | .hbm, ⟨80, _⟩ => ⟨S640000, .i32⟩
  | .hbm, ⟨81, _⟩ => ⟨S640000, .i32⟩
  | .hbm, ⟨82, _⟩ => ⟨S640000, .i32⟩
  | .hbm, ⟨83, _⟩ => ⟨S640000x1, .i32⟩
  | .hbm, ⟨84, _⟩ => ⟨S640000x128, .f32⟩
  | .hbm, ⟨85, _⟩ => ⟨S_, .i32⟩
  | .hbm, ⟨86, _⟩ => ⟨S640000, .i32⟩
  | .hbm, ⟨87, _⟩ => ⟨S640000, .i1⟩
  | .hbm, ⟨88, _⟩ => ⟨S_, .i32⟩
  | .hbm, ⟨89, _⟩ => ⟨S640000, .i32⟩
  | .hbm, ⟨90, _⟩ => ⟨S640000, .i32⟩
  | .hbm, ⟨91, _⟩ => ⟨S640000, .i32⟩
  | .hbm, ⟨92, _⟩ => ⟨S640000x1, .i32⟩
  | .hbm, ⟨93, _⟩ => ⟨S640000x128, .f32⟩
  | .hbm, ⟨94, _⟩ => ⟨S640000x128, .f32⟩
  | .hbm, ⟨95, _⟩ => ⟨S_, .f32⟩
  | .hbm, ⟨96, _⟩ => ⟨S640000, .f32⟩
  | .hbm, ⟨97, _⟩ => ⟨S640000, .f32⟩
  | .hbm, ⟨98, _⟩ => ⟨S640000, .f32⟩
  | .hbm, ⟨99, _⟩ => ⟨S_, .f32⟩
  | .hbm, ⟨100, _⟩ => ⟨S640000, .f32⟩
  | .hbm, ⟨101, _⟩ => ⟨S640000, .f32⟩
  | .hbm, ⟨102, _⟩ => ⟨S_, .f32⟩
  | .hbm, ⟨103, _⟩ => ⟨S640000, .f32⟩
  | .hbm, ⟨104, _⟩ => ⟨S640000, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_cst : Ref sig .tc := ⟨.hbm, 42, rfl⟩
abbrev main_call0_v0 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_15 : Ref sig .tc := ⟨.hbm, 99, rfl⟩
abbrev main_v69 : Ref sig .tc := ⟨.hbm, 100, rfl⟩
abbrev main_v70 : Ref sig .tc := ⟨.hbm, 101, rfl⟩
abbrev main_cst_16 : Ref sig .tc := ⟨.hbm, 102, rfl⟩
abbrev main_v71 : Ref sig .tc := ⟨.hbm, 103, rfl⟩
abbrev main_v72 : Ref sig .tc := ⟨.hbm, 104, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  reducesTo_S640000x128_S640000_d1 : S640000x128.ReducesTo [1] S640000
  h_S_ : 0 < S_.numel
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_0_0_1_n_n_wf : DotDims.WF S40000x128 S128x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.KernelRun.lean ====
/-
  The idealized kernel's whole run with its result named.

  The program is three grid regions among four stretches of host operations. Its buffers' contents at the
  boundaries are a fold through the program: after a stretch of host operations, those operations applied to the
  contents before; after a region, the region's arrays at what its write-backs leave and every other buffer as it
  was. The frame of the run says that every weakly fair execution ends, faultless, with every buffer the program
  does not scope at the last boundary's contents. Here that is read at the result buffer as well as at the eleven
  argument buffers: the result ends at the last boundary's contents of its buffer, the arguments as launched.
-/
import proofs.«128347_j70875550319063_1_alg».proof.Proof.KernelIdealFrameP

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with the result buffer at the last boundary's
    contents and the argument buffers as launched. -/
theorem run : θ_run defs (onTc (τ := τ) (main (F := F))) ⟨m, fun _ => 0, ρ⟩ (fun r => ∀ c : Dev nD,
      r.2.mem ((c.tc : Thread nD τ).loc main_v51) = W7 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v51 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.Whole

end
-- ==== Proof.SageSpec.lean ====
/-
  Two rounds of mean-aggregating graph convolution and a dot-product edge score, as the host spells them.

  A graph on 40000 nodes is given by 640000 edges (source and destination node numbers; a negative number counts
  from the end). One round of the convolution takes node features X (40000 × 128) to

      X · W_self + mean_in(X) · W_neigh + b,

  where row v of mean_in(X) is the sum of X's rows over the edges that end at v, divided by the larger of 1 and
  the number of such edges. The first round is followed by the maximum with zero. An edge (s, d) of a second list
  then scores 1 / (1 + exp(−⟨h_s, h_d⟩)) on the final features h.

  Everything below is that computation written with the host's own operations (gather, accumulating scatter,
  broadcast, plain matrix product, row sum) on the extended reals. The pieces are named so that the places where
  the two programs differ — the dense part of a round, and the score — can be compared one at a time while the
  gathers and scatters, which both programs spell alike, are never opened.
-/
import proofs.«128347_j70875550319063_1_alg».proof.ReferenceIdeal
import Idealize.ShloMosaic.PureOps.Ideal

noncomputable section

namespace Cert.Sage

open Idealize.ShloMosaic Cert.ReferenceIdeal
open Cert.ReferenceIdeal.Facts₀ Cert.ReferenceIdeal.Facts

variable [Cert.ReferenceIdeal.Facts]

/-- A list of 640000 node numbers. -/
abbrev NodeIds := IVec S640000 32
/-- The same list laid as a column. -/
abbrev NodeIdCol := IVec S640000x1 32
/-- Features of the 40000 nodes. -/
abbrev NodeFeat := FVec Ideal S40000x128 .f32
/-- One feature row per edge. -/
abbrev EdgeFeat := FVec Ideal S640000x128 .f32
/-- A 128 × 128 weight table. -/
abbrev Weight := FVec Ideal S128x128 .f32
/-- A bias of 128 numbers. -/
abbrev Bias := FVec Ideal S128 .f32
/-- One number per node. -/
abbrev PerNode := FVec Ideal S40000 .f32
/-- One number per edge. -/
abbrev PerEdge := FVec Ideal S640000 .f32

/-- Node numbers with the negative ones counted from the end (40000 added), laid as a column. -/
def wrapped (e : NodeIds) : NodeIdCol :=
  broadcastInDim S640000x1 ![0] bcast_S640000_S640000x1_0
    (select (cmpi .slt e (broadcastInDim S640000 ![] bcast_S_S640000 (constantI S_ 32 0#32)))
      (addi e (broadcastInDim S640000 ![] bcast_S_S640000 (constantI S_ 32 40000#32))) e)

/-- Node numbers laid as a column, as they are. -/
def column (e : NodeIds) : NodeIdCol := broadcastInDim S640000x1 ![0] bcast_S640000_S640000x1_0 e

/-- The rows of X at the listed nodes, one per edge. -/
def rowsAt (x : NodeFeat) (e : NodeIds) : EdgeFeat :=
  Host.gather gather_S40000x128_S640000x1_S640000x128_1_0_n_n_0_1_1128 x (wrapped e)

/-- How many edges end at each node. -/
def degree (dst : NodeIds) : PerNode :=
  Host.scatterAdd (F := Ideal) scatter_S40000_S640000x1_S640000_n_0_0_1
    (broadcastInDim S40000 ![] bcast_S_S40000 (constant (F := Ideal) S_ .f32 0x00000000#32)) (column dst)
    (broadcastInDim S640000 ![] bcast_S_S640000 (constant (F := Ideal) S_ .f32 0x3F800000#32))

/-- For each node, the sum of X's rows at the sources of the edges that end there. -/
def summed (x : NodeFeat) (src dst : NodeIds) : NodeFeat :=
  Host.scatterAdd (F := Ideal) scatter_S40000x128_S640000x1_S640000x128_1_0_0_1
    (broadcastInDim S40000x128 ![] bcast_S_S40000x128 (constant (F := Ideal) S_ .f32 0x00000000#32)) (column dst) (rowsAt x src)

/-- Each row divided by the larger of 1 and the node's count. -/
def meanOver (agg : NodeFeat) (deg : PerNode) : NodeFeat :=
  Host.divf (F := Ideal) agg
    (broadcastInDim S40000x128 ![0, 1] bcast_S40000x1_S40000x128_0_1
      (broadcastInDim S40000x1 ![0] bcast_S40000_S40000x1_0
        (maximumf deg (broadcastInDim S40000 ![] bcast_S_S40000 (constant (F := Ideal) S_ .f32 0x3F800000#32)))))

/-- The mean of X's rows over each node's incoming edges. -/
def neighbourMean (x : NodeFeat) (src dst : NodeIds) : NodeFeat := meanOver (summed x src dst) (degree dst)

/-- The dense part of a round: X · W_self + H · W_neigh + b on every row. -/
def dense (x hn : NodeFeat) (ws wn : Weight) (b : Bias) : NodeFeat :=
  addf (addf (Host.dotGeneral (F := Ideal) dot_S40000x128_S128x128_S40000x128_1_0_0_1_n_n none x ws)
      (Host.dotGeneral (F := Ideal) dot_S40000x128_S128x128_S40000x128_1_0_0_1_n_n none hn wn))
    (broadcastInDim S40000x128 ![0, 1] bcast_S1x128_S40000x128_0_1 (broadcastInDim S1x128 ![1] bcast_S128_S1x128_1 b))

/-- The maximum with zero, entry by entry. -/
def positive (y : NodeFeat) : NodeFeat :=
  maximumf y (broadcastInDim S40000x128 ![] bcast_S_S40000x128 (constant (F := Ideal) S_ .f32 0x00000000#32))

/-- The logistic function of the dot product of each edge's two rows, spelt 1 / (1 + exp(−Σ)). -/
def score (hs hd : EdgeFeat) : PerEdge :=
  Host.divf (F := Ideal) (broadcastInDim S640000 ![] bcast_S_S640000 (constant (F := Ideal) S_ .f32 0x3F800000#32))
    (addf (broadcastInDim S640000 ![] bcast_S_S640000 (constant (F := Ideal) S_ .f32 0x3F800000#32))
      (Host.exp (F := Ideal) (Host.negf (F := Ideal)
        (Host.reduceAdd (F := Ideal) (mulf hs hd) (constant (F := Ideal) S_ .f32 0x00000000#32) reducesTo_S640000x128_S640000_d1 h_S_))))

/-- The features after the first round. -/
def hidden1 (feat : NodeFeat) (es ed : NodeIds) (ws wn : Weight) (b : Bias) : NodeFeat :=
  positive (dense feat (neighbourMean feat es ed) ws wn b)

/-- The features after the second round. -/
def hidden2 (h1 : NodeFeat) (es ed : NodeIds) (ws wn : Weight) (b : Bias) : NodeFeat :=
  dense h1 (neighbourMean h1 es ed) ws wn b

/-- The whole network: two rounds, then the score of each listed edge. -/
def net (feat : NodeFeat) (es ed s d : NodeIds) (ws0 wn0 : Weight) (b0 : Bias) (ws1 wn1 : Weight) (b1 : Bias) : PerEdge :=
  score (rowsAt (hidden2 (hidden1 feat es ed ws0 wn0 b0) es ed ws1 wn1 b1) s)
    (rowsAt (hidden2 (hidden1 feat es ed ws0 wn0 b0) es ed ws1 wn1 b1) d)

end Cert.Sage

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibHostLayout.lean ====
/-
  Two host re-layings read at one entry, over any sizes and any element type.

  * A matrix transposed: the result at (i, j) is the matrix at (j, i).
  * A vector of N entries laid as a row [1, N] and then down M rows, by two `broadcast_in_dim`s: the result at (r, c)
    is entry c.
  * A rank-zero value broadcast to a matrix: every entry is the value.
-/
import Idealize.ShloMosaic.Lib.Pipeline.Value
import Idealize.ShloMosaic.Lib.ValueIdx

noncomputable section

namespace Cert.HostLayout

open Idealize.ShloMosaic Idealize.ShloMosaic.ValueIdx

/-- A transposed matrix at (i, j) is the matrix at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun q => ?_
  match q with
  | ⟨0, _⟩ => rfl
  | ⟨1, _⟩ => rfl

/-- A vector laid as a row and then down M rows reads, at (r, c), entry c. -/
theorem biasRow_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 v) (ix2 r c) = v (ix1 c) := by
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A rank-zero value broadcast to any shape reads the value everywhere. -/
theorem scalar_apply {α : Type} {t : Shape} (u : (⟨0, ![]⟩ : Shape).Idx → α)
    (h : (⟨0, ![]⟩ : Shape).BroadcastsInDim t ![]) (i : t.Idx) :
    broadcastInDim t ![] h u i = u (fun a => a.elim0) :=
  broadcastInDim_apply ![] h u i (fun a => a.elim0) (fun a => a.elim0)

end Cert.HostLayout

end
-- ==== Proof.LibBlockRows.lean ====
/-
  Picking rows out of a matrix, and the layers of a dense graph network read on the picked rows.

  A map ρ from the row numbers of a small matrix to the row numbers of a tall one lays rows ρ 0, ρ 1, … of the
  tall matrix as a matrix of its own (`rowsOf`). Every layer below acts on each row separately, so computing the
  layer on the picked rows gives the picked rows of the layer computed on the whole matrix:

  * a product with a fixed right factor, Σ_k A (r, k) · G (k, c): the matrix unit's product into a zero
    accumulator on the picked rows against the host's plain product on the whole;
  * a bias, one vector of N numbers added to every row: the vector laid as a row and broadcast down the picked
    rows against two host broadcasts down all rows;
  * the entry-by-entry operations (sum, product, maximum, exponential) and a constant splat.

  Everything is on the extended reals, where a change of float format is the identity, so an operand may first
  have been converted to a narrower format.
-/
import Idealize.ShloMosaic.PureOps.Ideal.Laws
import Idealize.ShloMosaic.Lib.Pipeline.Value
import Idealize.ShloMosaic.Lib.ValueIdx
import Idealize.ShloMosaic.Lib.ValueLayout
import proofs.«128347_j70875550319063_1_alg».proof.Proof.LibPlainMatmul
import proofs.«128347_j70875550319063_1_alg».proof.Proof.LibHostReads
import proofs.«128347_j70875550319063_1_alg».proof.Proof.LibHostLayout

noncomputable section

open scoped BigOperators

namespace Cert.BlockRows

open Idealize.ShloMosaic Idealize.ShloMosaic.ValueIdx

variable {TM M K N : Nat}

/-- Rows ρ 0, ρ 1, … of an M-row matrix, laid as a TM-row matrix. -/
def rowsOf {α : Type} (ρ : Fin TM → Fin M) (X : (⟨2, ![M, K]⟩ : Shape).Idx → α) : (⟨2, ![TM, K]⟩ : Shape).Idx → α :=
  fun j => X (ix2 (ρ (j 0)) (j 1))

/-- Entry (p, k) of the picked rows is entry (ρ p, k) of the matrix. -/
theorem rowsOf_apply {α : Type} (ρ : Fin TM → Fin M) (X : (⟨2, ![M, K]⟩ : Shape).Idx → α) (p : Fin TM) (k : Fin K) :
    rowsOf ρ X (ix2 p k) = X (ix2 (ρ p) k) := rfl

/-- Picking every row in place changes nothing. -/
theorem rowsOf_id {α : Type} (X : (⟨2, ![M, K]⟩ : Shape).Idx → α) : rowsOf (fun p : Fin M => p) X = X := by
  funext j
  exact congrArg X (eq_ix2 j).symm

/-- Row p of block t when M rows are cut into n blocks of TM rows each: row TM · t + p. -/
def blockRow (TM n M : Nat) (h : TM * n ≤ M) (t : Fin n) : Fin TM → Fin M := fun p =>
  ⟨TM * t.val + p.val, by
    have ht := t.isLt
    have hp := p.isLt
    calc TM * t.val + p.val < TM * t.val + TM := by omega
      _ = TM * (t.val + 1) := by rw [Nat.mul_succ]
      _ ≤ TM * n := Nat.mul_le_mul_left _ (by omega)
      _ ≤ M := h⟩

/-- Its row number. -/
theorem blockRow_val (TM n M : Nat) (h : TM * n ≤ M) (t : Fin n) (p : Fin TM) :
    (blockRow TM n M h t p).val = TM * t.val + p.val := rfl

/-- A sum of picked rows is the picked rows of the sum. -/
theorem addf_rows {φ : FTy} (ρ : Fin TM → Fin M) (X Y : FVec Ideal ⟨2, ![M, N]⟩ φ) :
    addf (rowsOf ρ X) (rowsOf ρ Y) = rowsOf ρ (addf X Y) := rfl

/-- A product, entry by entry, of picked rows is the picked rows of the product. -/
theorem mulf_rows {φ : FTy} (ρ : Fin TM → Fin M) (X Y : FVec Ideal ⟨2, ![M, N]⟩ φ) :
    mulf (rowsOf ρ X) (rowsOf ρ Y) = rowsOf ρ (mulf X Y) := rfl

/-- The exponential of picked rows is the picked rows of the host's exponential: one function on the extended reals. -/
theorem exp_rows {φ : FTy} (ρ : Fin TM → Fin M) (X : FVec Ideal ⟨2, ![M, N]⟩ φ) :
    exp (rowsOf ρ X) = rowsOf ρ (Host.exp X) := rfl

/-- The host's plain product of an M × K by a K × N matrix. -/
def propagate (A : FVec Ideal ⟨2, ![M, K]⟩ .f32) (G : FVec Ideal ⟨2, ![K, N]⟩ .f32) : FVec Ideal ⟨2, ![M, N]⟩ .f32 :=
  Host.dotGeneral (F := Ideal) (DotDims.plain M K N) none A G

/-- The host's dense layer: the plain product X · W plus the one row B added to every row. -/
def dense (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (Host.dotGeneral (F := Ideal) (DotDims.plain M K N) none X W) (broadcastInDim ⟨2, ![M, N]⟩ ![0, 1] h2 B)

/-- The host's maximum with zero, the zero a rank-zero constant broadcast to the matrix. -/
def relu (h0 : (⟨0, ![]⟩ : Shape).BroadcastsInDim ⟨2, ![M, N]⟩ ![]) (Y : FVec Ideal ⟨2, ![M, N]⟩ .f32) :
    FVec Ideal ⟨2, ![M, N]⟩ .f32 :=
  maximumf Y (broadcastInDim ⟨2, ![M, N]⟩ ![] h0 (constant (F := Ideal) ⟨0, ![]⟩ .f32 0x00000000#32))

/-- The host's product with a constant, the constant of word `w` broadcast from rank zero. -/
def scaled (w : BitVec 32) (h0 : (⟨0, ![]⟩ : Shape).BroadcastsInDim ⟨2, ![M, N]⟩ ![]) (Y : FVec Ideal ⟨2, ![M, N]⟩ .f32) :
    FVec Ideal ⟨2, ![M, N]⟩ .f32 :=
  mulf (broadcastInDim ⟨2, ![M, N]⟩ ![] h0 (constant (F := Ideal) ⟨0, ![]⟩ .f32 w)) Y

/-- The product with a fixed right factor, row by row: when row p of `a` is row ρ p of `A` and `g` is `G`, the
    matrix unit's product of `a` and `g` into zeros is the picked rows of the host's product of `A` and `G`. -/
theorem matmul_rows (ρ : Fin TM → Fin M) {φ₁ φ₂ : FTy} (prec prec' : Option ContractPrecision)
    (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : ∀ (p : Fin TM) (k : Fin K), (a (ix2 p k) : EReal) = A (ix2 (ρ p) k))
    (hg : ∀ (k : Fin K) (n : Fin N), (g (ix2 k n) : EReal) = G (ix2 k n)) :
    matmul (DotDims.plain TM K N) prec a g (constant ⟨2, ![TM, N]⟩ .f32 0x00000000#32)
      = rowsOf ρ (Host.dotGeneral (F := Ideal) (DotDims.plain M K N) prec' A G) := by
  funext j
  obtain ⟨p, c, rfl⟩ : ∃ (p : Fin TM) (c : Fin N), j = ix2 p c := ⟨j 0, j 1, eq_ix2 j⟩
  rw [rowsOf_apply, Cert.LibHostReads.dotGeneral_plain_apply]
  refine (Cert.PlainMatmul.matmul_zero_apply TM K N prec a g p c).trans ?_
  exact Finset.sum_congr rfl fun k _ => congrArg₂ (· * ·) (ha p k) (hg k c)

/-- The propagation step on picked rows: the matrix unit's product, into zeros, of the picked rows of A and the
    whole of G — both first converted to a narrower float format, which changes nothing on the extended reals — is
    the picked rows of the host's product A · G. -/
theorem propagate_rows (ρ : Fin TM → Fin M) {ψ : FTy} (hψ : ψ.bits < FTy.f32.bits)
    (hs : (⟨2, ![K, N]⟩ : Shape).ShapeCasts ⟨2, ![K, N]⟩)
    (A : FVec Ideal ⟨2, ![M, K]⟩ .f32) (G : FVec Ideal ⟨2, ![K, N]⟩ .f32) :
    matmul (DotDims.plain TM K N) none (truncf ψ (rowsOf ρ A) hψ) (truncf ψ (shapeCast ⟨2, ![K, N]⟩ G hs) hψ)
        (constant ⟨2, ![TM, N]⟩ .f32 0x00000000#32)
      = rowsOf ρ (propagate A G) := by
  rw [shapeCast_self]
  exact matmul_rows ρ none none _ _ A G (fun _ _ => rfl) (fun _ _ => rfl)

/-- A dense layer on picked rows: the matrix unit's product of the picked rows of X and the whole of W into zeros,
    plus the row B broadcast down the picked rows, is the picked rows of the host's layer on X. -/
theorem dense_rows (ρ : Fin TM → Fin M)
    (hsw : (⟨2, ![K, N]⟩ : Shape).ShapeCasts ⟨2, ![K, N]⟩) (hs : (⟨2, ![1, N]⟩ : Shape).ShapeCasts ⟨2, ![1, N]⟩)
    (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    addf (matmul (DotDims.plain TM K N) none (rowsOf ρ X) (shapeCast ⟨2, ![K, N]⟩ W hsw)
          (constant ⟨2, ![TM, N]⟩ .f32 0x00000000#32))
        (broadcastTo ⟨2, ![TM, N]⟩ (shapeCast ⟨2, ![1, N]⟩ B hs) hb)
      = rowsOf ρ (dense h2 X W B) := by
  rw [shapeCast_self, shapeCast_self, matmul_rows ρ none none (rowsOf ρ X) W X W (fun _ _ => rfl) (fun _ _ => rfl)]
  unfold dense
  rw [← addf_rows]
  refine congrArg (addf (rowsOf ρ (Host.dotGeneral (F := Ideal) (DotDims.plain M K N) none X W))) ?_
  funext j
  obtain ⟨p, c, rfl⟩ : ∃ (p : Fin TM) (c : Fin N), j = ix2 p c := ⟨j 0, j 1, eq_ix2 j⟩
  rw [broadcastTo_1b_ab_apply, rowsOf_apply]
  refine (broadcastInDim_apply _ h2 B (ix2 (ρ p) c) (ix2 (0 : Fin 1) c) fun a => ?_).symm
  match a with
  | ⟨0, _⟩ => show (0 : Fin 1).val = if (1 : Nat) = 1 then 0 else (ρ p).val; rw [if_pos rfl]; rfl
  | ⟨1, _⟩ =>
    show c.val = if N = 1 then 0 else c.val
    split
    · have := c.isLt; omega
    · rfl

/-- A vector of N numbers reshaped to one row is the same vector broadcast into a row along its one axis. -/
theorem reshape_row {α : Type} (v : (⟨1, ![N]⟩ : Shape).Idx → α) (hs : (⟨1, ![N]⟩ : Shape).ShapeCasts ⟨2, ![1, N]⟩)
    (h1 : (⟨1, ![N]⟩ : Shape).BroadcastsInDim ⟨2, ![1, N]⟩ ![1]) :
    shapeCast ⟨2, ![1, N]⟩ v hs = broadcastInDim ⟨2, ![1, N]⟩ ![1] h1 v := by
  funext i
  obtain ⟨z, c, rfl⟩ : ∃ (z : Fin 1) (c : Fin N), i = ix2 z c := ⟨i 0, i 1, eq_ix2 i⟩
  have hz : z.val = 0 := by have := z.isLt; omega
  refine (shapeCast_apply v hs (ix2 z c) (ix1 c) ?_).trans (broadcastInDim_apply ![1] h1 v (ix2 z c) (ix1 c) fun a => ?_).symm
  · rewrite [Shape.rowMajor_val_two, Shape.rowMajor_val_one]
    show c.val = z.val * N + c.val
    rw [hz]; simp
  · match a with
    | ⟨0, _⟩ =>
      show c.val = if N = 1 then 0 else c.val
      split
      · have := c.isLt; omega
      · rfl

/-- A constant splat over TM rows is the picked rows of the same constant broadcast from rank zero over M rows. -/
theorem splat_rows (ρ : Fin TM → Fin M) (w : BitVec 32) (h : (⟨0, ![]⟩ : Shape).BroadcastsInDim ⟨2, ![M, N]⟩ ![]) :
    (broadcast ⟨2, ![TM, N]⟩ (Scalar.ofBits (F := Ideal) .f32 w) : FVec Ideal ⟨2, ![TM, N]⟩ .f32)
      = rowsOf ρ (broadcastInDim ⟨2, ![M, N]⟩ ![] h (constant (F := Ideal) ⟨0, ![]⟩ .f32 w)) := by
  funext j
  exact (Cert.HostLayout.scalar_apply (constant (F := Ideal) ⟨0, ![]⟩ .f32 w) h (ix2 (ρ (j 0)) (j 1))).symm

/-- The maximum with a splat zero of picked rows is the picked rows of the host's maximum with zero. -/
theorem relu_rows (ρ : Fin TM → Fin M) (h0 : (⟨0, ![]⟩ : Shape).BroadcastsInDim ⟨2, ![M, N]⟩ ![])
    (Y : FVec Ideal ⟨2, ![M, N]⟩ .f32) :
    maximumf (rowsOf ρ Y) (broadcast ⟨2, ![TM, N]⟩ (Scalar.ofBits (F := Ideal) .f32 0x00000000#32)) = rowsOf ρ (relu h0 Y) := by
  rw [splat_rows ρ 0x00000000#32 h0]; rfl

/-- The product of a splat constant with picked rows is the picked rows of the host's product with the constant. -/
theorem scaled_rows (ρ : Fin TM → Fin M) (w : BitVec 32) (h0 : (⟨0, ![]⟩ : Shape).BroadcastsInDim ⟨2, ![M, N]⟩ ![])
    (Y : FVec Ideal ⟨2, ![M, N]⟩ .f32) :
    mulf (broadcast ⟨2, ![TM, N]⟩ (Scalar.ofBits (F := Ideal) .f32 w)) (rowsOf ρ Y) = rowsOf ρ (scaled w h0 Y) := by
  rw [splat_rows ρ w h0]; rfl

end Cert.BlockRows

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.LibTwoInputDense.lean ====
/-
  A dense layer with two inputs, read on picked rows.

  The layer takes two matrices X and H of M rows and K columns, two K × N weight tables and a bias of N numbers to

      X · W_x + H · W_h + b      (the bias added to every row),

  optionally followed by the maximum with zero. Each row of the result depends on the same row of X and of H only,
  so the layer computed on rows ρ 0, ρ 1, … of X and H (the matrix unit's product into a zero accumulator, the
  operands first converted to a narrower float format, the bias laid as a row and broadcast down the picked rows)
  is the picked rows of the host's layer on the whole matrices (plain products, the bias laid out by two host
  broadcasts). Everything is on the extended reals, any sizes.
-/
import Idealize.ShloMosaic.PureOps.Ideal.Laws
import Idealize.ShloMosaic.Lib.Pipeline.Value
import Idealize.ShloMosaic.Lib.ValueIdx
import Idealize.ShloMosaic.Lib.ValueLayout
import proofs.«128347_j70875550319063_1_alg».proof.Proof.LibBlockRows
import proofs.«128347_j70875550319063_1_alg».proof.Proof.LibHostLayout
import proofs.«128347_j70875550319063_1_alg».proof.Proof.LibColRowBroadcast

noncomputable section

open scoped BigOperators

namespace Cert.TwoInputDense

open Idealize.ShloMosaic Idealize.ShloMosaic.ValueIdx Cert.BlockRows

variable {TM M K N : Nat}

/-- The host's layer X · W_x + H · W_h + b on whole matrices. -/
def layer (h1 : (⟨1, ![N]⟩ : Shape).BroadcastsInDim ⟨2, ![1, N]⟩ ![1])
    (h2 : (⟨2, ![1, N]⟩ : Shape).BroadcastsInDim ⟨2, ![M, N]⟩ ![0, 1])
    (X H : FVec Ideal ⟨2, ![M, K]⟩ .f32) (Wx Wh : FVec Ideal ⟨2, ![K, N]⟩ .f32) (b : FVec Ideal ⟨1, ![N]⟩ .f32) :
    FVec Ideal ⟨2, ![M, N]⟩ .f32 :=
  addf (addf (Host.dotGeneral (F := Ideal) (DotDims.plain M K N) none X Wx)
      (Host.dotGeneral (F := Ideal) (DotDims.plain M K N) none H Wh))
    (broadcastInDim ⟨2, ![M, N]⟩ ![0, 1] h2 (broadcastInDim ⟨2, ![1, N]⟩ ![1] h1 b))

/-- The bias laid as one row and broadcast down the picked rows is the picked rows of the bias laid out by the host's
    two broadcasts: both read entry c of the bias at column c. -/
theorem bias_rows (ρ : Fin TM → Fin M) (b : FVec Ideal ⟨1, ![N]⟩ .f32)
    (hs : (⟨1, ![N]⟩ : Shape).ShapeCasts ⟨2, ![1, N]⟩) (hb : (⟨2, ![1, N]⟩ : Shape).Broadcasts ⟨2, ![TM, N]⟩)
    (h1 : (⟨1, ![N]⟩ : Shape).BroadcastsInDim ⟨2, ![1, N]⟩ ![1])
    (h2 : (⟨2, ![1, N]⟩ : Shape).BroadcastsInDim ⟨2, ![M, N]⟩ ![0, 1]) :
    broadcastTo ⟨2, ![TM, N]⟩ (shapeCast ⟨2, ![1, N]⟩ b hs) hb
      = rowsOf ρ (broadcastInDim ⟨2, ![M, N]⟩ ![0, 1] h2 (broadcastInDim ⟨2, ![1, N]⟩ ![1] h1 b)) := by
  funext j
  obtain ⟨p, c, rfl⟩ : ∃ (p : Fin TM) (c : Fin N), j = ix2 p c := ⟨j 0, j 1, eq_ix2 j⟩
  rw [broadcastTo_1b_ab_apply, rowsOf_apply, Cert.HostLayout.biasRow_apply]
  exact Cert.ColRowBroadcast.rowCast_apply b hs (0 : Fin 1) c

/-- The layer on picked rows: the two products of the matrix unit into zeros (operands converted to a narrower
    format first) and the broadcast bias row, summed, are the picked rows of the host's layer. -/
theorem layer_rows (ρ : Fin TM → Fin M) {ψ : FTy} (hψ : ψ.bits < FTy.f32.bits)
    (hs : (⟨1, ![N]⟩ : Shape).ShapeCasts ⟨2, ![1, N]⟩) (hb : (⟨2, ![1, N]⟩ : Shape).Broadcasts ⟨2, ![TM, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (X H : FVec Ideal ⟨2, ![M, K]⟩ .f32) (Wx Wh : FVec Ideal ⟨2, ![K, N]⟩ .f32) (b : FVec Ideal ⟨1, ![N]⟩ .f32) :
    addf (addf (matmul (DotDims.plain TM K N) none (truncf ψ (rowsOf ρ X) hψ) (truncf ψ Wx hψ)
            (constant ⟨2, ![TM, N]⟩ .f32 0x00000000#32))
          (matmul (DotDims.plain TM K N) none (truncf ψ (rowsOf ρ H) hψ) (truncf ψ Wh hψ)
            (constant ⟨2, ![TM, N]⟩ .f32 0x00000000#32)))
        (broadcastTo ⟨2, ![TM, N]⟩ (shapeCast ⟨2, ![1, N]⟩ b hs) hb)
      = rowsOf ρ (layer h1 h2 X H Wx Wh b) := by
  rw [matmul_rows ρ none none (truncf ψ (rowsOf ρ X) hψ) (truncf ψ Wx hψ) X Wx (fun _ _ => rfl) (fun _ _ => rfl),
    matmul_rows ρ none none (truncf ψ (rowsOf ρ H) hψ) (truncf ψ Wh hψ) H Wh (fun _ _ => rfl) (fun _ _ => rfl),
    bias_rows ρ b hs hb h1 h2]
  rfl

/-- The same followed by the maximum with a splat zero: the picked rows of the host's layer followed by its
    maximum with zero. -/
theorem layer_relu_rows (ρ : Fin TM → Fin M) {ψ : FTy} (hψ : ψ.bits < FTy.f32.bits)
    (hs : (⟨1, ![N]⟩ : Shape).ShapeCasts ⟨2, ![1, N]⟩) (hb : (⟨2, ![1, N]⟩ : Shape).Broadcasts ⟨2, ![TM, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (X H : FVec Ideal ⟨2, ![M, K]⟩ .f32) (Wx Wh : FVec Ideal ⟨2, ![K, N]⟩ .f32) (b : FVec Ideal ⟨1, ![N]⟩ .f32) :
    maximumf (addf (addf (matmul (DotDims.plain TM K N) none (truncf ψ (rowsOf ρ X) hψ) (truncf ψ Wx hψ)
              (constant ⟨2, ![TM, N]⟩ .f32 0x00000000#32))
            (matmul (DotDims.plain TM K N) none (truncf ψ (rowsOf ρ H) hψ) (truncf ψ Wh hψ)
              (constant ⟨2, ![TM, N]⟩ .f32 0x00000000#32)))
          (broadcastTo ⟨2, ![TM, N]⟩ (shapeCast ⟨2, ![1, N]⟩ b hs) hb))
        (broadcast ⟨2, ![TM, N]⟩ (Scalar.ofBits (F := Ideal) .f32 0x00000000#32))
      = rowsOf ρ (relu h0 (layer h1 h2 X H Wx Wh b)) := by
  rw [layer_rows ρ hψ hs hb h1 h2 X H Wx Wh b]
  exact relu_rows ρ h0 _

end Cert.TwoInputDense

end
-- ==== Proof.Round1.lean ====
/-
  The first region: the dense part of the first round, X · W_self + H · W_neigh + b followed by the maximum with zero,
  on ten blocks of 4000 nodes. Each grid point takes 4000 rows of the features and of the neighbour means and both
  weight tables and the bias whole, and writes 4000 rows of the output. A row of the result depends on the same row
  of the two inputs only, so what a point writes is its rows of the host's expression on the whole arrays, and the
  ten points' rows fill the output array.
-/
import proofs.«128347_j70875550319063_1_alg».proof.Proof.KernelIdealFrameP
import proofs.«128347_j70875550319063_1_alg».proof.Proof.Gen.ReferenceIdeal
import proofs.«128347_j70875550319063_1_alg».proof.Proof.SageSpec
import proofs.«128347_j70875550319063_1_alg».proof.Proof.LibTwoInputDense
import Idealize.ShloMosaic.Lib.Pipeline.Value

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open Cert.BlockRows

variable (V : (c : Dev nD) → (b : Ref sig .tc) → Buf (Elt Ideal) ((c : Thread nD τ).loc b))

theorem zeros2_0 : (![0, 0] : Fin 2 → Nat) = fun _ => 0 := funext fun a => by fin_cases a <;> rfl
theorem zeros1_0 : (![0] : Fin 1 → Nat) = fun _ => 0 := funext fun a => by fin_cases a <;> rfl

/-- Where each window's block sits at grid point t: the two row-blocked inputs and the output at block row t, the
    weight tables and the bias whole (decided over the ten points). -/
theorem blockAt0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The node that row p of block t is: node 4000 · t + p. -/
def nodeOf0 (t : Fin cfg0.N) : Fin 4000 → Fin 40000 := fun p =>
  ⟨4000 * t.val + p.val, by
    have ht : t.val < 10 := lt_of_lt_of_eq t.isLt N_0
    have hp := p.isLt
    omega⟩

/-- What the region computes as one function of the arrays it finds: the host's spelling of the round's dense part. -/
def round1 (c : Dev nD) : FVec Ideal S40000x128 .f32 :=
  Cert.Sage.positive (Cert.Sage.dense (V c main_arg0) (V c main_v18) (V c main_arg5) (V c main_arg6) (V c main_arg7))

/-- Block t of the first input is rows 4000 t … 4000 t + 3999 of its array. -/
theorem block0_0 (c : Dev nD) (t : Fin cfg0.N) :
    (iblk0 V c 0 t : FVec Ideal S4000x128 .f32)
      = rowsOf (TM := 4000) (M := 40000) (K := 128) (nodeOf0 t) (V c main_arg0 : FVec Ideal S40000x128 .f32) := by
  obtain ⟨e0, e1, -⟩ := blockAt0 t
  funext y
  show V c main_arg0 (((cfg0.win 0).blk t).view.emb y) = V c main_arg0 (ix2 (nodeOf0 t (y 0)) (y 1))
  refine congrArg (V c main_arg0) (funext fun a => Fin.ext ?_)
  match a with
  | ⟨0, _⟩ =>
    show win0_0.index t (0 : Fin 2) * 4000 + 1 * (y 0).val = 4000 * t.val + (y 0).val
    rw [e0]; omega
  | ⟨1, _⟩ =>
    show win0_0.index t (1 : Fin 2) * 128 + 1 * (y 1).val = (y 1).val
    rw [e1]; omega

/-- Block t of the second input is the same rows of its array. -/
theorem block0_1 (c : Dev nD) (t : Fin cfg0.N) :
    (iblk0 V c 1 t : FVec Ideal S4000x128 .f32)
      = rowsOf (TM := 4000) (M := 40000) (K := 128) (nodeOf0 t) (V c main_v18 : FVec Ideal S40000x128 .f32) := by
  obtain ⟨-, -, e0, e1, -⟩ := blockAt0 t
  funext y
  show V c main_v18 (((cfg0.win 1).blk t).view.emb y) = V c main_v18 (ix2 (nodeOf0 t (y 0)) (y 1))
  refine congrArg (V c main_v18) (funext fun a => Fin.ext ?_)
  match a with
  | ⟨0, _⟩ =>
    show win0_1.index t (0 : Fin 2) * 4000 + 1 * (y 0).val = 4000 * t.val + (y 0).val
    rw [e0]; omega
  | ⟨1, _⟩ =>
    show win0_1.index t (1 : Fin 2) * 128 + 1 * (y 1).val = (y 1).val
    rw [e1]; omega

/-- The first weight table's one block is the whole table. -/
theorem block0_2 (c : Dev nD) (t : Fin cfg0.N) :
    (iblk0 V c 2 t : FVec Ideal S128x128 .f32) = (V c main_arg5 : FVec Ideal S128x128 .f32) := by
  obtain ⟨-, -, -, -, e0, e1, -⟩ := blockAt0 t
  funext y
  show V c main_arg5 (((cfg0.win 2).blk t).view.emb y) = V c main_arg5 y
  refine congrArg (V c main_arg5) (funext fun a => Fin.ext ?_)
  match a with
  | ⟨0, _⟩ =>
    show win0_2.index t (0 : Fin 2) * 128 + 1 * (y 0).val = (y 0).val
    rw [e0]; omega
  | ⟨1, _⟩ =>
    show win0_2.index t (1 : Fin 2) * 128 + 1 * (y 1).val = (y 1).val
    rw [e1]; omega

/-- The second weight table's one block is the whole table. -/
theorem block0_3 (c : Dev nD) (t : Fin cfg0.N) :
    (iblk0 V c 3 t : FVec Ideal S128x128 .f32) = (V c main_arg6 : FVec Ideal S128x128 .f32) := by
  obtain ⟨-, -, -, -, -, -, e0, e1, -⟩ := blockAt0 t
  funext y
  show V c main_arg6 (((cfg0.win 3).blk t).view.emb y) = V c main_arg6 y
  refine congrArg (V c main_arg6) (funext fun a => Fin.ext ?_)
  match a with
  | ⟨0, _⟩ =>
    show win0_3.index t (0 : Fin 2) * 128 + 1 * (y 0).val = (y 0).val
    rw [e0]; omega
  | ⟨1, _⟩ =>
    show win0_3.index t (1 : Fin 2) * 128 + 1 * (y 1).val = (y 1).val
    rw [e1]; omega

/-- The bias's one block is the whole bias. -/
theorem block0_4 (c : Dev nD) (t : Fin cfg0.N) :
    (iblk0 V c 4 t : FVec Ideal S128 .f32) = (V c main_arg7 : FVec Ideal S128 .f32) := by
  obtain ⟨-, -, -, -, -, -, -, -, e0, -⟩ := blockAt0 t
  funext y
  show V c main_arg7 (((cfg0.win 4).blk t).view.emb y) = V c main_arg7 y
  refine congrArg (V c main_arg7) (funext fun a => Fin.ext ?_)
  match a with
  | ⟨0, _⟩ =>
    show win0_4.index t (0 : Fin 1) * 128 + 1 * (y 0).val = (y 0).val
    rw [e0]; omega

/-- The body's arithmetic on picked rows of X and H is the picked rows of the host's dense part. -/
theorem body0_rows (ρ : Fin 4000 → Fin 40000) (X H : FVec Ideal S40000x128 .f32) (Ws Wn : FVec Ideal S128x128 .f32)
    (b : FVec Ideal S128 .f32) :
    k0_pay1 (F := Ideal) (rowsOf ρ X) (rowsOf ρ H) Ws Wn b = rowsOf ρ (Cert.Sage.positive (Cert.Sage.dense X H Ws Wn b)) := by
  unfold k0_pay1
  simp only [shapeCast_self]
  exact Cert.TwoInputDense.layer_relu_rows ρ _ _ _ _ _ _ X H Ws Wn b

/-- What grid point t writes back is block t of the host's dense part of the arrays the region finds. -/
theorem flushed0 (c : Dev nD) (t : Fin cfg0.N) :
    (dat0 V c).flushed 5 t = ((cfg0.win 5).blk t).view.read (Elt Ideal) (round1 V c) := by
  show (cfg0.win 5).cut (grid0.coords t) ((dat0 V c).after 5 t) = _
  rw [after0_5]
  unfold out0_5
  rw [View.canon_unit_zero zeros2_0]
  simp only [View.ld_unit_zero (S := S4000x128) zeros2_0, View.ld_unit_zero (S := S128x128) zeros2_0,
    View.ld_unit_zero (S := S128) zeros1_0]
  rw [block0_0 V c t, block0_1 V c t, block0_2 V c t, block0_3 V c t, block0_4 V c t, body0_rows]
  obtain ⟨-, -, -, -, -, -, -, -, -, e0, e1⟩ := blockAt0 t
  funext y
  show round1 V c (ix2 (nodeOf0 t (y 0)) (y 1)) = round1 V c (((cfg0.win 5).blk t).view.emb y)
  refine congrArg (round1 V c) (funext fun a => Fin.ext ?_)
  match a with
  | ⟨0, _⟩ =>
    show 4000 * t.val + (y 0).val = win0_5.index t (0 : Fin 2) * 4000 + 1 * (y 0).val
    rw [e0]; omega
  | ⟨1, _⟩ =>
    show (y 1).val = win0_5.index t (1 : Fin 2) * 128 + 1 * (y 1).val
    rw [e1]; omega

/-- An entry of the output array is in point t's block iff each coordinate is in the block's range. -/
theorem mem_block0 (t : Fin cfg0.N) (i : S40000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v19).slice (win0_5.rect t)).set ↔ _
  rw [View.set_slice_whole, Rect.mem_set_unit]
  exact Iff.rfl

/-- Every entry of the output array is written back by some point: row r by point r / 4000. -/
theorem cover0 (i : S40000x128.Idx) :
    ∃ t : Fin cfg0.N, (cfg0.win 5).flush t = true ∧ i ∈ ((cfg0.win 5).blk t).view.set := by
  have hi0 : (i 0).val < 40000 := (i 0).isLt
  have hi1 : (i 1).val < 128 := (i 1).isLt
  have hN : cfg0.N = 10 := N_0
  refine ⟨⟨(i 0).val / 4000, by rw [hN]; omega⟩, flush0_5 _, ?_⟩
  rw [mem_block0]
  obtain ⟨-, -, -, -, -, -, -, -, -, e0, e1⟩ := blockAt0 ⟨(i 0).val / 4000, by rw [hN]; omega⟩
  intro a
  match a with
  | ⟨0, _⟩ =>
    show win0_5.index _ (0 : Fin 2) * 4000 ≤ (i 0).val ∧ (i 0).val < win0_5.index _ (0 : Fin 2) * 4000 + 4000
    rw [e0]
    show (i 0).val / 4000 * 4000 ≤ (i 0).val ∧ (i 0).val < (i 0).val / 4000 * 4000 + 4000
    omega
  | ⟨1, _⟩ =>
    show win0_5.index _ (1 : Fin 2) * 128 ≤ (i 1).val ∧ (i 1).val < win0_5.index _ (1 : Fin 2) * 128 + 128
    rw [e1]
    omega

/-- So after the region its output array holds the host's dense part of the arrays it found. -/
theorem final0 (c : Dev nD) : (dat0 V c).arrAt 5 cfg0.N = round1 V c :=
  (dat0 V c).arrAt_eq_of_cover 5 (round1 V c) (fun t _ => flushed0 V c t) cover0

end Cert.KernelIdeal.Whole

end
-- ==== Proof.Round2.lean ====
/-
  The second region: the dense part of the second round, X · W_self + H · W_neigh + b with no maximum after it, on ten
  blocks of 4000 nodes. Each grid point takes 4000 rows of the first round's features and of their neighbour means
  and both weight tables and the bias whole, and writes 4000 rows of the output. A row of the result depends on the
  same row of the two inputs only, so what a point writes is its rows of the host's expression on the whole arrays,
  and the ten points' rows fill the output array.
-/
import proofs.«128347_j70875550319063_1_alg».proof.Proof.KernelIdealFrameP
import proofs.«128347_j70875550319063_1_alg».proof.Proof.Gen.ReferenceIdeal
import proofs.«128347_j70875550319063_1_alg».proof.Proof.SageSpec
import proofs.«128347_j70875550319063_1_alg».proof.Proof.LibTwoInputDense
import Idealize.ShloMosaic.Lib.Pipeline.Value

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open Cert.BlockRows

variable (V : (c : Dev nD) → (b : Ref sig .tc) → Buf (Elt Ideal) ((c : Thread nD τ).loc b))

theorem zeros2_1 : (![0, 0] : Fin 2 → Nat) = fun _ => 0 := funext fun a => by fin_cases a <;> rfl
theorem zeros1_1 : (![0] : Fin 1 → Nat) = fun _ => 0 := funext fun a => by fin_cases a <;> rfl

/-- Where each window's block sits at grid point t: the two row-blocked inputs and the output at block row t, the
    weight tables and the bias whole (decided over the ten points). -/
theorem blockAt1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The node that row p of block t is: node 4000 · t + p. -/
def nodeOf1 (t : Fin cfg1.N) : Fin 4000 → Fin 40000 := fun p =>
  ⟨4000 * t.val + p.val, by
    have ht : t.val < 10 := lt_of_lt_of_eq t.isLt N_1
    have hp := p.isLt
    omega⟩

/-- What the region computes as one function of the arrays it finds: the host's spelling of the round's dense part. -/
def round2 (c : Dev nD) : FVec Ideal S40000x128 .f32 :=
  (Cert.Sage.dense (V c main_v19) (V c main_v34) (V c main_arg8) (V c main_arg9) (V c main_arg10))

/-- Block t of the first input is rows 4000 t … 4000 t + 3999 of its array. -/
theorem block1_0 (c : Dev nD) (t : Fin cfg1.N) :
    (iblk1 V c 0 t : FVec Ideal S4000x128 .f32)
      = rowsOf (TM := 4000) (M := 40000) (K := 128) (nodeOf1 t) (V c main_v19 : FVec Ideal S40000x128 .f32) := by
  obtain ⟨e0, e1, -⟩ := blockAt1 t
  funext y
  show V c main_v19 (((cfg1.win 0).blk t).view.emb y) = V c main_v19 (ix2 (nodeOf1 t (y 0)) (y 1))
  refine congrArg (V c main_v19) (funext fun a => Fin.ext ?_)
  match a with
  | ⟨0, _⟩ =>
    show win1_0.index t (0 : Fin 2) * 4000 + 1 * (y 0).val = 4000 * t.val + (y 0).val
    rw [e0]; omega
  | ⟨1, _⟩ =>
    show win1_0.index t (1 : Fin 2) * 128 + 1 * (y 1).val = (y 1).val
    rw [e1]; omega

/-- Block t of the second input is the same rows of its array. -/
theorem block1_1 (c : Dev nD) (t : Fin cfg1.N) :
    (iblk1 V c 1 t : FVec Ideal S4000x128 .f32)
      = rowsOf (TM := 4000) (M := 40000) (K := 128) (nodeOf1 t) (V c main_v34 : FVec Ideal S40000x128 .f32) := by
  obtain ⟨-, -, e0, e1, -⟩ := blockAt1 t
  funext y
  show V c main_v34 (((cfg1.win 1).blk t).view.emb y) = V c main_v34 (ix2 (nodeOf1 t (y 0)) (y 1))
  refine congrArg (V c main_v34) (funext fun a => Fin.ext ?_)
  match a with
  | ⟨0, _⟩ =>
    show win1_1.index t (0 : Fin 2) * 4000 + 1 * (y 0).val = 4000 * t.val + (y 0).val
    rw [e0]; omega
  | ⟨1, _⟩ =>
    show win1_1.index t (1 : Fin 2) * 128 + 1 * (y 1).val = (y 1).val
    rw [e1]; omega

/-- The first weight table's one block is the whole table. -/
theorem block1_2 (c : Dev nD) (t : Fin cfg1.N) :
    (iblk1 V c 2 t : FVec Ideal S128x128 .f32) = (V c main_arg8 : FVec Ideal S128x128 .f32) := by
  obtain ⟨-, -, -, -, e0, e1, -⟩ := blockAt1 t
  funext y
  show V c main_arg8 (((cfg1.win 2).blk t).view.emb y) = V c main_arg8 y
  refine congrArg (V c main_arg8) (funext fun a => Fin.ext ?_)
  match a with
  | ⟨0, _⟩ =>
    show win1_2.index t (0 : Fin 2) * 128 + 1 * (y 0).val = (y 0).val
    rw [e0]; omega
  | ⟨1, _⟩ =>
    show win1_2.index t (1 : Fin 2) * 128 + 1 * (y 1).val = (y 1).val
    rw [e1]; omega

/-- The second weight table's one block is the whole table. -/
theorem block1_3 (c : Dev nD) (t : Fin cfg1.N) :
    (iblk1 V c 3 t : FVec Ideal S128x128 .f32) = (V c main_arg9 : FVec Ideal S128x128 .f32) := by
  obtain ⟨-, -, -, -, -, -, e0, e1, -⟩ := blockAt1 t
  funext y
  show V c main_arg9 (((cfg1.win 3).blk t).view.emb y) = V c main_arg9 y
  refine congrArg (V c main_arg9) (funext fun a => Fin.ext ?_)
  match a with
  | ⟨0, _⟩ =>
    show win1_3.index t (0 : Fin 2) * 128 + 1 * (y 0).val = (y 0).val
    rw [e0]; omega
  | ⟨1, _⟩ =>
    show win1_3.index t (1 : Fin 2) * 128 + 1 * (y 1).val = (y 1).val
    rw [e1]; omega

/-- The bias's one block is the whole bias. -/
theorem block1_4 (c : Dev nD) (t : Fin cfg1.N) :
    (iblk1 V c 4 t : FVec Ideal S128 .f32) = (V c main_arg10 : FVec Ideal S128 .f32) := by
  obtain ⟨-, -, -, -, -, -, -, -, e0, -⟩ := blockAt1 t
  funext y
  show V c main_arg10 (((cfg1.win 4).blk t).view.emb y) = V c main_arg10 y
  refine congrArg (V c main_arg10) (funext fun a => Fin.ext ?_)
  match a with
  | ⟨0, _⟩ =>
    show win1_4.index t (0 : Fin 1) * 128 + 1 * (y 0).val = (y 0).val
    rw [e0]; omega

/-- The body's arithmetic on picked rows of X and H is the picked rows of the host's dense part. -/
theorem body1_rows (ρ : Fin 4000 → Fin 40000) (X H : FVec Ideal S40000x128 .f32) (Ws Wn : FVec Ideal S128x128 .f32)
    (b : FVec Ideal S128 .f32) :
    k1_pay1 (F := Ideal) (rowsOf ρ X) (rowsOf ρ H) Ws Wn b = rowsOf ρ ((Cert.Sage.dense X H Ws Wn b)) := by
  unfold k1_pay1
  simp only [shapeCast_self]
  exact Cert.TwoInputDense.layer_rows ρ _ _ _ _ _ X H Ws Wn b

/-- What grid point t writes back is block t of the host's dense part of the arrays the region finds. -/
theorem flushed1 (c : Dev nD) (t : Fin cfg1.N) :
    (dat1 V c).flushed 5 t = ((cfg1.win 5).blk t).view.read (Elt Ideal) (round2 V c) := by
  show (cfg1.win 5).cut (grid1.coords t) ((dat1 V c).after 5 t) = _
  rw [after1_5]
  unfold out1_5
  rw [View.canon_unit_zero zeros2_1]
  simp only [View.ld_unit_zero (S := S4000x128) zeros2_1, View.ld_unit_zero (S := S128x128) zeros2_1,
    View.ld_unit_zero (S := S128) zeros1_1]
  rw [block1_0 V c t, block1_1 V c t, block1_2 V c t, block1_3 V c t, block1_4 V c t, body1_rows]
  obtain ⟨-, -, -, -, -, -, -, -, -, e0, e1⟩ := blockAt1 t
  funext y
  show round2 V c (ix2 (nodeOf1 t (y 0)) (y 1)) = round2 V c (((cfg1.win 5).blk t).view.emb y)
  refine congrArg (round2 V c) (funext fun a => Fin.ext ?_)
  match a with
  | ⟨0, _⟩ =>
    show 4000 * t.val + (y 0).val = win1_5.index t (0 : Fin 2) * 4000 + 1 * (y 0).val
    rw [e0]; omega
  | ⟨1, _⟩ =>
    show (y 1).val = win1_5.index t (1 : Fin 2) * 128 + 1 * (y 1).val
    rw [e1]; omega

/-- An entry of the output array is in point t's block iff each coordinate is in the block's range. -/
theorem mem_block1 (t : Fin cfg1.N) (i : S40000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v35).slice (win1_5.rect t)).set ↔ _
  rw [View.set_slice_whole, Rect.mem_set_unit]
  exact Iff.rfl

/-- Every entry of the output array is written back by some point: row r by point r / 4000. -/
theorem cover1 (i : S40000x128.Idx) :
    ∃ t : Fin cfg1.N, (cfg1.win 5).flush t = true ∧ i ∈ ((cfg1.win 5).blk t).view.set := by
  have hi0 : (i 0).val < 40000 := (i 0).isLt
  have hi1 : (i 1).val < 128 := (i 1).isLt
  have hN : cfg1.N = 10 := N_1
  refine ⟨⟨(i 0).val / 4000, by rw [hN]; omega⟩, flush1_5 _, ?_⟩
  rw [mem_block1]
  obtain ⟨-, -, -, -, -, -, -, -, -, e0, e1⟩ := blockAt1 ⟨(i 0).val / 4000, by rw [hN]; omega⟩
  intro a
  match a with
  | ⟨0, _⟩ =>
    show win1_5.index _ (0 : Fin 2) * 4000 ≤ (i 0).val ∧ (i 0).val < win1_5.index _ (0 : Fin 2) * 4000 + 4000
    rw [e0]
    show (i 0).val / 4000 * 4000 ≤ (i 0).val ∧ (i 0).val < (i 0).val / 4000 * 4000 + 4000
    omega
  | ⟨1, _⟩ =>
    show win1_5.index _ (1 : Fin 2) * 128 ≤ (i 1).val ∧ (i 1).val < win1_5.index _ (1 : Fin 2) * 128 + 128
    rw [e1]
    omega

/-- So after the region its output array holds the host's dense part of the arrays it found. -/
theorem final1 (c : Dev nD) : (dat1 V c).arrAt 5 cfg1.N = round2 V c :=
  (dat1 V c).arrAt_eq_of_cover 5 (round2 V c) (fun t _ => flushed1 V c t) cover1

end Cert.KernelIdeal.Whole

end
-- ==== Proof.LibRowSoftmax.lean ====
/-
  Softmax along the last axis, on the extended reals, and the operations a vector kernel or a host program builds it from,
  each read at one element, over any sizes.

  For a row `r` of extended reals, `rowMax r` is the greatest entry (the fold of `max` from −∞) and
  `rowSoftmax r j = exp (r j − rowMax r) / ∑ k, exp (r k − rowMax r)`, with the exponential and the quotient of the
  ideal float values (so the corners are theirs: exp (−∞) = 0, x / ±∞ = 0, …). `softmax2` and `softmax4` apply it to
  every row of a matrix and to every last-axis row of a rank-4 array. A softmax only looks along rows: two arrays that
  hold the same row give the same values on it (`softmax2_row`, `softmax4_row2`), which is what carries the function
  through blocks, sub-blocks and reshapes that keep rows whole.

  Read at an element: a lane maximum of an [a, b] vector from −∞ is `rowMax` of the row (`laneMax_apply`), a lane sum is
  the row's sum (`laneSum_apply`), a reduced column cast to [a, 1] and broadcast to [a, b] reads its row's entry
  (`keepdimsCol_apply`); the host's max-reduction over the last of four axes from −∞ is `rowMax` of that row
  (`hostRowMax_apply`), and a further `max` with −∞ changes nothing (`max_negInf`).
-/
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

/-! ## The function -/

/-- The f32 pattern of −∞ denotes the least extended real. -/
theorem negInf_eq_bot : Ideal.ofBits .f32 0xFF800000#32 = (⊥ : EReal) := by simp [Ideal.ofBits, Ideal.ieee]

/-- The maximum with −∞ is the other operand. -/
theorem max_negInf (x : EReal) : max (Ideal.ofBits .f32 0xFF800000#32) x = x := by
  rw [negInf_eq_bot]; exact max_eq_right bot_le

/-- The greatest entry of a row: the fold of `max` from −∞ (−∞ itself for an empty row). -/
def rowMax {n : ℕ} (r : Fin n → EReal) : EReal :=
  (Finset.univ : Finset (Fin n)).fold max (Ideal.ofBits .f32 0xFF800000#32) r

/-- Softmax of a row at position `j`: the entry's exponential, shifted by the row's maximum, over the sum of all the
    row's shifted exponentials. -/
def rowSoftmax {n : ℕ} (r : Fin n → EReal) (j : Fin n) : EReal :=
  Ideal.div (Ideal.exp (r j - rowMax r)) (∑ k : Fin n, Ideal.exp (r k - rowMax r))

/-- Softmax of every row of a matrix. -/
def softmax2 {a b : ℕ} (x : (⟨2, ![a, b]⟩ : Shape).Idx → EReal) : (⟨2, ![a, b]⟩ : Shape).Idx → EReal :=
  fun y => rowSoftmax (fun k : Fin b => x (ix2 (n0 := a) (y 0) k)) (y 1)

theorem softmax2_ix2 {a b : ℕ} (x : (⟨2, ![a, b]⟩ : Shape).Idx → EReal) (p : Fin a) (q : Fin b) :
    softmax2 x (ix2 p q) = rowSoftmax (fun k => x (ix2 p k)) q := rfl

/-- Softmax along the last axis of a rank-4 array. -/
def softmax4 {a b c d : ℕ} (x : (⟨4, ![a, b, c, d]⟩ : Shape).Idx → EReal) : (⟨4, ![a, b, c, d]⟩ : Shape).Idx → EReal :=
  fun y => rowSoftmax (fun k : Fin d => x (ix4 (n0 := a) (n1 := b) (n2 := c) (y 0) (y 1) (y 2) k)) (y 3)

theorem softmax4_ix4 {a b c d : ℕ} (x : (⟨4, ![a, b, c, d]⟩ : Shape).Idx → EReal) (i : Fin a) (j : Fin b) (k : Fin c) (q : Fin d) :
    softmax4 x (ix4 i j k q) = rowSoftmax (fun l => x (ix4 i j k l)) q := rfl

/-- Two matrices holding the same row have the same softmax on it. -/
theorem softmax2_row {a a' b : ℕ} (x : (⟨2, ![a, b]⟩ : Shape).Idx → EReal) (x' : (⟨2, ![a', b]⟩ : Shape).Idx → EReal)
    (p : Fin a) (p' : Fin a') (h : ∀ k : Fin b, x' (ix2 p' k) = x (ix2 p k)) (q : Fin b) :
    softmax2 x' (ix2 p' q) = softmax2 x (ix2 p q) := by
  rw [softmax2_ix2, softmax2_ix2, funext h]

/-- A rank-4 array and a matrix holding the same row have the same softmax on it. -/
theorem softmax4_row2 {a b c d a' : ℕ} (x : (⟨4, ![a, b, c, d]⟩ : Shape).Idx → EReal) (x' : (⟨2, ![a', d]⟩ : Shape).Idx → EReal)
    (i : Fin a) (j : Fin b) (k : Fin c) (p' : Fin a') (h : ∀ l : Fin d, x' (ix2 p' l) = x (ix4 i j k l)) (q : Fin d) :
    softmax2 x' (ix2 p' q) = softmax4 x (ix4 i j k q) := by
  rw [softmax2_ix2, softmax4_ix4, funext h]

/-! ## A vector kernel's pieces, at an element -/

/-- A lane maximum of an [a, b] vector, from −∞, at row `p`: the row's greatest entry. -/
theorem laneMax_apply {a b : ℕ} (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ v 0xFF800000#32 h hφ hacc (ix1 p) = rowMax (fun k : Fin b => v (ix2 p k)) := by
  refine (Ideal.multiReduction_maximumf_single v _ h hφ hacc (ix1 p)).trans ?_
  unfold rowMax
  refine congrArg (fun f => Finset.fold max _ f Finset.univ) (funext fun k => congrArg v (funext fun c => Fin.ext ?_))
  match c with
  | ⟨0, _⟩ => rfl
  | ⟨1, _⟩ => rfl

/-- A lane sum of an [a, b] vector at row `p`: the sum of the row. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v _ h hφ hacc (ix1 p)).trans ?_
  refine Finset.sum_congr rfl fun k _ => congrArg v (funext fun c => Fin.ext ?_)
  match c with
  | ⟨0, _⟩ => rfl
  | ⟨1, _⟩ => rfl

/-- A column of `a` entries cast to [a, 1] and broadcast along the lanes to [a, b] reads, at (p, q), entry `p`. -/
theorem keepdimsCol_apply {α : Type} {a b : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) := by
  refine (broadcastTo_apply _ hb (ix2 p q) (ix2 p (0 : Fin 1)) fun c => ?_).trans ?_
  · match c with
    | ⟨0, _⟩ =>
      show p.val = if a = 1 then 0 else p.val
      split
      · have := p.isLt; omega
      · rfl
    | ⟨1, _⟩ =>
      exact (if_pos rfl).symm
  · refine shapeCast_apply u hc (ix2 p (0 : Fin 1)) (ix1 p) ?_
    rw [Shape.rowMajor_val_one, Shape.rowMajor_val_two]
    show p.val = p.val * 1 + 0
    omega

/-- The whole vector expression — the lanes' maximum subtracted, the exponential, divided by the lanes' sum, the two
    reduced columns cast and broadcast back over the lanes — reads, at (p, q), the softmax of row `p` at `q`. -/
theorem vectorSoftmax_apply {a b : ℕ} (v : FVec Ideal ⟨2, ![a, b]⟩ .f32) (hr : Shape.Reduces ⟨2, ![a, b]⟩ [1] ⟨1, ![a]⟩)
    (hφ hφ' : FKind.Formats .f32) (hm : (0xFF800000#32 : BitVec 32) = FKind.maximumf.neutral .f32 hφ)
    (hs : (0x00000000#32 : BitVec 32) = FKind.add.neutral .f32 hφ')
    (hc : (⟨1, ![a]⟩ : Shape).ShapeCasts ⟨2, ![a, 1]⟩) (hb : (⟨2, ![a, 1]⟩ : Shape).Broadcasts ⟨2, ![a, b]⟩)
    (p : Fin a) (q : Fin b) :
    divf (exp (subf v (broadcastTo ⟨2, ![a, b]⟩ (shapeCast ⟨2, ![a, 1]⟩ (multiReduction .maximumf [1] ⟨1, ![a]⟩ v 0xFF800000#32 hr hφ hm) hc) hb)))
        (broadcastTo ⟨2, ![a, b]⟩ (shapeCast ⟨2, ![a, 1]⟩ (multiReduction .add [1] ⟨1, ![a]⟩
          (exp (subf v (broadcastTo ⟨2, ![a, b]⟩ (shapeCast ⟨2, ![a, 1]⟩ (multiReduction .maximumf [1] ⟨1, ![a]⟩ v 0xFF800000#32 hr hφ hm) hc) hb)))
          0x00000000#32 hr hφ' hs) hc) hb) (ix2 p q)
      = softmax2 v (ix2 p q) := by
  have hsub : ∀ k : Fin b, exp (subf v (broadcastTo ⟨2, ![a, b]⟩ (shapeCast ⟨2, ![a, 1]⟩ (multiReduction .maximumf [1] ⟨1, ![a]⟩ v 0xFF800000#32 hr hφ hm) hc) hb)) (ix2 p k)
      = Ideal.exp (v (ix2 p k) - rowMax (fun l : Fin b => v (ix2 p l))) := fun k => by
    show Ideal.exp (v (ix2 p k) - broadcastTo ⟨2, ![a, b]⟩ (shapeCast ⟨2, ![a, 1]⟩ (multiReduction .maximumf [1] ⟨1, ![a]⟩ v 0xFF800000#32 hr hφ hm) hc) hb (ix2 p k)) = _
    rw [keepdimsCol_apply, laneMax_apply]
  rw [softmax2_ix2]
  unfold rowSoftmax
  show Ideal.div (exp (subf v _) (ix2 p q)) (broadcastTo ⟨2, ![a, b]⟩ (shapeCast ⟨2, ![a, 1]⟩ _ hc) hb (ix2 p q)) = _
  rw [keepdimsCol_apply, laneSum_apply, hsub q]
  exact congrArg _ (Finset.sum_congr rfl fun k _ => hsub k)

/-! ## The host's pieces, at an element -/

/-- The host's max-reduction over the last of four axes, from an initial value, at (i, j, k): the fold of `max` from the
    initial value over that row. -/
theorem hostRowFold_apply {a b c d : ℕ} (x : FVec Ideal ⟨4, ![a, b, c, d]⟩ .f32) (init : FVec Ideal ⟨0, ![]⟩ .f32)
    (h' : Shape.ReducesTo ⟨4, ![a, b, c, d]⟩ [3] ⟨3, ![a, b, c]⟩) (h : Shape.Reduces ⟨4, ![a, b, c, d]⟩ [3] ⟨3, ![a, b, c]⟩)
    (hu : 0 < (⟨0, ![]⟩ : Shape).numel) (i : Fin a) (j : Fin b) (k : Fin c) :
    Host.reduce FloatOps.maximumf x init h' hu (ix3 i j k)
      = (Finset.univ : Finset (Fin d)).fold max (init (Shape.Idx.first hu)) (fun l : Fin d => x (ix4 i j k l)) := by
  refine (Host.reduce_eq_fold_single FloatOps.maximumf x init h' h hu (ix3 i j k)).trans ?_
  refine congrArg (fun f => Finset.fold max _ f Finset.univ) (funext fun l => congrArg x (funext fun e => Fin.ext ?_))
  match e with
  | ⟨0, _⟩ => rfl
  | ⟨1, _⟩ => rfl
  | ⟨2, _⟩ => rfl
  | ⟨3, _⟩ => rfl

end Cert.RowSoftmax

end
-- ==== Proof.LibHostRowSoftmax.lean ====
/-
  Softmax along the last axis of a matrix as a host program spells it, read at one element on the extended reals, over
  any sizes: the row maximum by a max-reduction from −∞ (and one more maximum with −∞, which changes nothing), cast to a
  column and broadcast back, subtracted; the exponential; the row sum by an add-reduction from zero, cast and broadcast
  back; the quotient. At (p, q) the whole expression is the softmax of row p at q.
-/
import Idealize.ShloMosaic.PureOps.Ideal.Laws
import Idealize.ShloMosaic.Lib.ValueIdx
import Idealize.ShloMosaic.Lib.Pipeline.Value
import proofs.«128347_j70875550319063_1_alg».proof.Proof.LibRowSoftmax

noncomputable section

open scoped BigOperators

namespace Cert.HostRowSoftmax

open Idealize.ShloMosaic Idealize.ShloMosaic.ValueIdx Cert.RowSoftmax

/-- The host's max-reduction over the last of two axes, from an initial value, at row p: the fold of `max` from the
    initial value over that row. -/
theorem hostRowFold_apply {a b : ℕ} (x : FVec Ideal ⟨2, ![a, b]⟩ .f32) (init : FVec Ideal ⟨0, ![]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (p : Fin a) :
    Host.reduce FloatOps.maximumf x init h' hu (ix1 p)
      = (Finset.univ : Finset (Fin b)).fold max (init (Shape.Idx.first hu)) (fun l : Fin b => x (ix2 p l)) := by
  refine (Host.reduce_eq_fold_single FloatOps.maximumf x init h' h hu (ix1 p)).trans ?_
  refine congrArg (fun f => Finset.fold max _ f Finset.univ) (funext fun l => congrArg x (funext fun e => Fin.ext ?_))
  match e with
  | ⟨0, _⟩ => rfl
  | ⟨1, _⟩ => rfl

/-- The host's add-reduction over the last of two axes, from the zero word, at row p: the sum of that row. -/
theorem hostRowSum_apply {a b : ℕ} (x : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (p : Fin a) :
    Host.reduceAdd x (constant (F := Ideal) ⟨0, ![]⟩ .f32 0x00000000#32) h' hu (ix1 p) = ∑ l : Fin b, x (ix2 p l) := by
  simp only [Host.reduceAdd, Ideal.hostReduceAdd_def]
  rw [Ideal.hostReduceAdd_single h' h]
  rw [constant_apply, Ideal.ofBits_zero_f32, zero_add]
  refine Finset.sum_congr rfl fun l _ => congrArg x (funext fun e => Fin.ext ?_)
  match e with
  | ⟨0, _⟩ => rfl
  | ⟨1, _⟩ => rfl

/-- A vector of `a` entries laid as a column [a, 1] and then along the lanes to [a, b] by two `broadcast_in_dim`s reads,
    at (p, q), entry p. -/
theorem keepdimsCol_apply {α : Type} {a b : ℕ} (u : (⟨1, ![a]⟩ : Shape).Idx → α)
    (b1 : (⟨1, ![a]⟩ : Shape).BroadcastsInDim ⟨2, ![a, 1]⟩ ![0])
    (b2 : (⟨2, ![a, 1]⟩ : Shape).BroadcastsInDim ⟨2, ![a, b]⟩ ![0, 1]) (p : Fin a) (q : Fin b) :
    broadcastInDim ⟨2, ![a, b]⟩ ![0, 1] b2 (broadcastInDim ⟨2, ![a, 1]⟩ ![0] b1 u) (ix2 p q) = u (ix1 p) := by
  refine (broadcastInDim_apply _ b2 _ (ix2 p q) (ix2 p (0 : Fin 1)) fun c => ?_).trans ?_
  · match c with
    | ⟨0, _⟩ =>
      show p.val = if a = 1 then 0 else p.val
      split
      · have := p.isLt; omega
      · rfl
    | ⟨1, _⟩ => exact (if_pos rfl).symm
  · refine broadcastInDim_apply _ b1 u (ix2 p (0 : Fin 1)) (ix1 p) fun c => ?_
    match c with
    | ⟨0, _⟩ =>
      show p.val = if a = 1 then 0 else p.val
      split
      · have := p.isLt; omega
      · rfl

/-- The row maximum as the host takes it — the max-reduction from −∞, then the maximum with −∞ broadcast from rank
    zero — at row p: the row's greatest entry. -/
theorem hostRowMax_apply {a b : ℕ} (s : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (b0 : (⟨0, ![]⟩ : Shape).BroadcastsInDim ⟨1, ![a]⟩ ![]) (p : Fin a) :
    maximumf (broadcastInDim ⟨1, ![a]⟩ ![] b0 (constant (F := Ideal) ⟨0, ![]⟩ .f32 0xFF800000#32))
        (Host.reduce FloatOps.maximumf s (constant (F := Ideal) ⟨0, ![]⟩ .f32 0xFF800000#32) h' hu) (ix1 p)
      = rowMax (fun l : Fin b => s (ix2 p l)) := by
  have e1 : broadcastInDim ⟨1, ![a]⟩ ![] b0 (constant (F := Ideal) ⟨0, ![]⟩ .f32 0xFF800000#32) (ix1 p)
      = Ideal.ofBits .f32 0xFF800000#32 :=
    broadcastInDim_apply ![] b0 (constant (F := Ideal) ⟨0, ![]⟩ .f32 0xFF800000#32) (ix1 p) (fun e => e.elim0) (fun e => e.elim0)
  rw [maximumf_apply, e1, max_negInf, hostRowFold_apply s _ h' h hu p, constant_apply]
  unfold rowMax
  rfl

/-- The host's exponential of a difference at an index. -/
theorem hostExpSub_apply {t : Shape} (s B : FVec Ideal t .f32) (i : t.Idx) :
    Host.exp (subf s B) i = Ideal.exp (s i - B i) := rfl

/-- The host's quotient at an index. -/
theorem hostDivf_apply {t : Shape} (u v : FVec Ideal t .f32) (i : t.Idx) :
    Host.divf u v i = Ideal.div (u i) (v i) := rfl

/-- The host's whole softmax expression at (p, q): the softmax of row p at q. -/
theorem hostSoftmax_apply {a b : ℕ} (s : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (b0 : (⟨0, ![]⟩ : Shape).BroadcastsInDim ⟨1, ![a]⟩ ![])
    (b1 : (⟨1, ![a]⟩ : Shape).BroadcastsInDim ⟨2, ![a, 1]⟩ ![0])
    (b2 : (⟨2, ![a, 1]⟩ : Shape).BroadcastsInDim ⟨2, ![a, b]⟩ ![0, 1]) (p : Fin a) (q : Fin b) :
    Host.divf
        (Host.exp (subf s (broadcastInDim ⟨2, ![a, b]⟩ ![0, 1] b2 (broadcastInDim ⟨2, ![a, 1]⟩ ![0] b1
          (maximumf (broadcastInDim ⟨1, ![a]⟩ ![] b0 (constant (F := Ideal) ⟨0, ![]⟩ .f32 0xFF800000#32))
            (Host.reduce FloatOps.maximumf s (constant (F := Ideal) ⟨0, ![]⟩ .f32 0xFF800000#32) h' hu))))))
        (broadcastInDim ⟨2, ![a, b]⟩ ![0, 1] b2 (broadcastInDim ⟨2, ![a, 1]⟩ ![0] b1
          (Host.reduceAdd (Host.exp (subf s (broadcastInDim ⟨2, ![a, b]⟩ ![0, 1] b2 (broadcastInDim ⟨2, ![a, 1]⟩ ![0] b1
            (maximumf (broadcastInDim ⟨1, ![a]⟩ ![] b0 (constant (F := Ideal) ⟨0, ![]⟩ .f32 0xFF800000#32))
              (Host.reduce FloatOps.maximumf s (constant (F := Ideal) ⟨0, ![]⟩ .f32 0xFF800000#32) h' hu))))))
            (constant (F := Ideal) ⟨0, ![]⟩ .f32 0x00000000#32) h' hu))) (ix2 p q)
      = softmax2 s (ix2 p q) := by
  have hsub : ∀ k : Fin b, Host.exp (subf s (broadcastInDim ⟨2, ![a, b]⟩ ![0, 1] b2 (broadcastInDim ⟨2, ![a, 1]⟩ ![0] b1
        (maximumf (broadcastInDim ⟨1, ![a]⟩ ![] b0 (constant (F := Ideal) ⟨0, ![]⟩ .f32 0xFF800000#32))
          (Host.reduce FloatOps.maximumf s (constant (F := Ideal) ⟨0, ![]⟩ .f32 0xFF800000#32) h' hu))))) (ix2 p k)
      = Ideal.exp (s (ix2 p k) - rowMax (fun l : Fin b => s (ix2 p l))) := fun k => by
    rw [hostExpSub_apply, keepdimsCol_apply, hostRowMax_apply s h' h hu b0 p]
  rw [softmax2_ix2]
  unfold rowSoftmax
  rw [hostDivf_apply, keepdimsCol_apply, hostRowSum_apply _ h' h hu p, hsub q]
  exact congrArg _ (Finset.sum_congr rfl fun k _ => hsub k)

end Cert.HostRowSoftmax

end
-- ==== Proof.LibRowDotLogistic.lean ====
/-
  The logistic of a row-by-row dot product, read on picked rows.

  Two matrices A and B of M rows and K columns give one number per row, 1 / (1 + exp(−Σ_k A (r, k) · B (r, k))).
  The host spells it with a product entry by entry, a row sum from zero, a negation, an exponential, the sum with a
  constant one and the quotient of a constant one by it — a vector of M numbers. The vector unit, on rows ρ 0, ρ 1, …
  of A and B, spells it with a product, a lane sum from zero laid as a column, and its logistic operation — a column
  of TM numbers. On the extended reals the logistic operation IS 1 / (1 + exp(−x)), and the constant word is the
  number one, so the column is the picked rows of the host's vector laid as a column. Any sizes.
-/
import Idealize.ShloMosaic.PureOps.Ideal.Laws
import Idealize.ShloMosaic.Lib.Pipeline.Value
import Idealize.ShloMosaic.Lib.ValueIdx
import Idealize.ShloMosaic.Lib.IdealHost
import proofs.«128347_j70875550319063_1_alg».proof.Proof.LibBlockRows
import proofs.«128347_j70875550319063_1_alg».proof.Proof.LibHostLayout
import proofs.«128347_j70875550319063_1_alg».proof.Proof.LibColRowBroadcast
import proofs.«128347_j70875550319063_1_alg».proof.Proof.LibRowSoftmax
import proofs.«128347_j70875550319063_1_alg».proof.Proof.LibHostRowSoftmax

noncomputable section

open scoped BigOperators

namespace Cert.RowDotLogistic

open Idealize.ShloMosaic Idealize.ShloMosaic.ValueIdx Cert.BlockRows

variable {TM M K : Nat}

/-- The logistic of the dot product of row r of A and row r of B. -/
def entry (A B : FVec Ideal ⟨2, ![M, K]⟩ .f32) (r : Fin M) : EReal :=
  Ideal.logistic (∑ k : Fin K, A (ix2 r k) * B (ix2 r k))

/-- The host's spelling: 1 / (1 + exp(−(row sum of A ⊙ B))), one number per row. -/
def hostScore (h0 : (⟨0, ![]⟩ : Shape).BroadcastsInDim ⟨1, ![M]⟩ ![])
    (h' : Shape.ReducesTo ⟨2, ![M, K]⟩ [1] ⟨1, ![M]⟩) (hu : 0 < (⟨0, ![]⟩ : Shape).numel)
    (A B : FVec Ideal ⟨2, ![M, K]⟩ .f32) : FVec Ideal ⟨1, ![M]⟩ .f32 :=
  Host.divf (F := Ideal) (broadcastInDim ⟨1, ![M]⟩ ![] h0 (constant (F := Ideal) ⟨0, ![]⟩ .f32 0x3F800000#32))
    (addf (broadcastInDim ⟨1, ![M]⟩ ![] h0 (constant (F := Ideal) ⟨0, ![]⟩ .f32 0x3F800000#32))
      (Host.exp (F := Ideal) (Host.negf (F := Ideal)
        (Host.reduceAdd (F := Ideal) (mulf A B) (constant (F := Ideal) ⟨0, ![]⟩ .f32 0x00000000#32) h' hu))))

/-- The host's vector at row r is the logistic of that row's dot product. -/
theorem hostScore_apply (h0 : (⟨0, ![]⟩ : Shape).BroadcastsInDim ⟨1, ![M]⟩ ![])
    (h' : Shape.ReducesTo ⟨2, ![M, K]⟩ [1] ⟨1, ![M]⟩) (h : Shape.Reduces ⟨2, ![M, K]⟩ [1] ⟨1, ![M]⟩)
    (hu : 0 < (⟨0, ![]⟩ : Shape).numel) (A B : FVec Ideal ⟨2, ![M, K]⟩ .f32) (r : Fin M) :
    hostScore h0 h' hu A B (ix1 r) = entry A B r := by
  show Ideal.div (broadcastInDim ⟨1, ![M]⟩ ![] h0 (constant (F := Ideal) ⟨0, ![]⟩ .f32 0x3F800000#32) (ix1 r))
      (broadcastInDim ⟨1, ![M]⟩ ![] h0 (constant (F := Ideal) ⟨0, ![]⟩ .f32 0x3F800000#32) (ix1 r)
        + Ideal.exp (-(Host.reduceAdd (F := Ideal) (mulf A B) (constant (F := Ideal) ⟨0, ![]⟩ .f32 0x00000000#32) h' hu (ix1 r))))
    = _
  rw [Cert.HostLayout.scalar_apply, Cert.HostRowSoftmax.hostRowSum_apply (mulf A B) h' h hu r]
  show Ideal.div (Ideal.ofBits .f32 0x3F800000#32)
      (Ideal.ofBits .f32 0x3F800000#32 + Ideal.exp (-(∑ l : Fin K, A (ix2 r l) * B (ix2 r l)))) = _
  rw [Ideal.ofBits_one_f32]
  rfl

/-- A vector of M numbers laid as a column. -/
def asColumn {α : Type} (v : (⟨1, ![M]⟩ : Shape).Idx → α) : (⟨2, ![M, 1]⟩ : Shape).Idx → α := fun i => v (ix1 (i 0))

/-- A column reshaped to a vector reads back the vector. -/
theorem reshape_asColumn {α : Type} (v : (⟨1, ![M]⟩ : Shape).Idx → α)
    (hc : (⟨2, ![M, 1]⟩ : Shape).ShapeCasts ⟨1, ![M]⟩) :
    shapeCast ⟨1, ![M]⟩ (asColumn v) hc = v := by
  funext i
  obtain ⟨r, rfl⟩ : ∃ r : Fin M, i = ix1 r := ⟨i 0, eq_ix1 i⟩
  refine shapeCast_apply (asColumn v) hc (ix1 r) (ix2 r (0 : Fin 1)) ?_
  rw [Shape.rowMajor_val_one, Shape.rowMajor_val_two]
  show r.val * 1 + (0 : Fin 1).val = r.val
  simp

/-- The vector unit's column on picked rows is the picked rows of the host's vector laid as a column. -/
theorem column_rows (ρ : Fin TM → Fin M)
    (hr : Shape.Reduces ⟨2, ![TM, K]⟩ [1] ⟨1, ![TM]⟩) (hφ : FKind.Formats .f32)
    (hacc : (0x00000000#32 : BitVec 32) = FKind.add.neutral .f32 hφ)
    (hc : (⟨1, ![TM]⟩ : Shape).ShapeCasts ⟨2, ![TM, 1]⟩)
    (h0 : (⟨0, ![]⟩ : Shape).BroadcastsInDim ⟨1, ![M]⟩ ![])
    (h' : Shape.ReducesTo ⟨2, ![M, K]⟩ [1] ⟨1, ![M]⟩) (h : Shape.Reduces ⟨2, ![M, K]⟩ [1] ⟨1, ![M]⟩)
    (hu : 0 < (⟨0, ![]⟩ : Shape).numel) (A B : FVec Ideal ⟨2, ![M, K]⟩ .f32) :
    logistic (shapeCast ⟨2, ![TM, 1]⟩
        (multiReduction .add [1] ⟨1, ![TM]⟩ (mulf (rowsOf ρ A) (rowsOf ρ B)) 0x00000000#32 hr hφ hacc) hc)
      = rowsOf ρ (asColumn (hostScore h0 h' hu A B)) := by
  funext j
  obtain ⟨p, z, rfl⟩ : ∃ (p : Fin TM) (z : Fin 1), j = ix2 p z := ⟨j 0, j 1, eq_ix2 j⟩
  rw [rowsOf_apply]
  show Ideal.logistic (shapeCast ⟨2, ![TM, 1]⟩
      (multiReduction .add [1] ⟨1, ![TM]⟩ (mulf (rowsOf ρ A) (rowsOf ρ B)) 0x00000000#32 hr hφ hacc) hc (ix2 p z))
    = hostScore h0 h' hu A B (ix1 (ρ p))
  rw [Cert.ColRowBroadcast.colCast_apply, Cert.RowSoftmax.laneSum_apply, hostScore_apply h0 h' h hu A B (ρ p)]
  rfl

end Cert.RowDotLogistic

end
-- ==== Proof.EdgeScore.lean ====
/-
  The third region: the score of 640000 edges, on eighty blocks of 8000 edges. Each grid point takes 8000 rows of the
  two gathered feature arrays and writes 8000 entries of a one-column output: the logistic of each row pair's dot
  product. A row of the result depends on the same row of the two inputs only, so what a point writes is its rows
  of the host's score vector laid as a column, and the eighty points' rows fill the output array.
-/
import proofs.«128347_j70875550319063_1_alg».proof.Proof.KernelIdealFrameP
import proofs.«128347_j70875550319063_1_alg».proof.Proof.Gen.ReferenceIdeal
import proofs.«128347_j70875550319063_1_alg».proof.Proof.SageSpec
import proofs.«128347_j70875550319063_1_alg».proof.Proof.LibRowDotLogistic
import Idealize.ShloMosaic.Lib.Pipeline.Value

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open Cert.BlockRows Cert.RowDotLogistic

variable (V : (c : Dev nD) → (b : Ref sig .tc) → Buf (Elt Ideal) ((c : Thread nD τ).loc b))

theorem zeros2_2 : (![0, 0] : Fin 2 → Nat) = fun _ => 0 := funext fun a => by fin_cases a <;> rfl

/-- Where each window's block sits at grid point t: all three at block row t (decided over the eighty points). -/
theorem blockAt2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The edge that row p of block t is: edge 8000 · t + p. -/
def edgeOf (t : Fin cfg2.N) : Fin 8000 → Fin 640000 := fun p =>
  ⟨8000 * t.val + p.val, by
    have ht : t.val < 80 := lt_of_lt_of_eq t.isLt N_2
    have hp := p.isLt
    omega⟩

/-- What the region computes as one function of the arrays it finds: the host's score vector, laid as a column. -/
def scores (c : Dev nD) : FVec Ideal S640000x1 .f32 :=
  asColumn (M := 640000) (Cert.Sage.score (V c main_v42) (V c main_v49))

/-- Block t of the first input is rows 8000 t … 8000 t + 7999 of its array. -/
theorem block2_0 (c : Dev nD) (t : Fin cfg2.N) :
    (iblk2 V c 0 t : FVec Ideal S8000x128 .f32)
      = rowsOf (TM := 8000) (M := 640000) (K := 128) (edgeOf t) (V c main_v42 : FVec Ideal S640000x128 .f32) := by
  obtain ⟨e0, e1, -⟩ := blockAt2 t
  funext y
  show V c main_v42 (((cfg2.win 0).blk t).view.emb y) = V c main_v42 (ix2 (edgeOf t (y 0)) (y 1))
  refine congrArg (V c main_v42) (funext fun a => Fin.ext ?_)
  match a with
  | ⟨0, _⟩ =>
    show win2_0.index t (0 : Fin 2) * 8000 + 1 * (y 0).val = 8000 * t.val + (y 0).val
    rw [e0]; omega
  | ⟨1, _⟩ =>
    show win2_0.index t (1 : Fin 2) * 128 + 1 * (y 1).val = (y 1).val
    rw [e1]; omega

/-- Block t of the second input is the same rows of its array. -/
theorem block2_1 (c : Dev nD) (t : Fin cfg2.N) :
    (iblk2 V c 1 t : FVec Ideal S8000x128 .f32)
      = rowsOf (TM := 8000) (M := 640000) (K := 128) (edgeOf t) (V c main_v49 : FVec Ideal S640000x128 .f32) := by
  obtain ⟨-, -, e0, e1, -⟩ := blockAt2 t
  funext y
  show V c main_v49 (((cfg2.win 1).blk t).view.emb y) = V c main_v49 (ix2 (edgeOf t (y 0)) (y 1))
  refine congrArg (V c main_v49) (funext fun a => Fin.ext ?_)
  match a with
  | ⟨0, _⟩ =>
    show win2_1.index t (0 : Fin 2) * 8000 + 1 * (y 0).val = 8000 * t.val + (y 0).val
    rw [e0]; omega
  | ⟨1, _⟩ =>
    show win2_1.index t (1 : Fin 2) * 128 + 1 * (y 1).val = (y 1).val
    rw [e1]; omega

/-- The body's arithmetic on picked rows of the two inputs is the picked rows of the host's score column. -/
theorem body2_rows (ρ : Fin 8000 → Fin 640000) (A B : FVec Ideal S640000x128 .f32) :
    k2_pay1 (F := Ideal) (rowsOf ρ A) (rowsOf ρ B) = rowsOf ρ (asColumn (M := 640000) (Cert.Sage.score A B)) := by
  unfold k2_pay1
  simp only [shapeCast_self]
  exact column_rows ρ _ _ _ _ _ _ (by decide) _ A B

/-- What grid point t writes back is block t of the host's score column of the arrays the region finds. -/
theorem flushed2 (c : Dev nD) (t : Fin cfg2.N) :
    (dat2 V c).flushed 2 t = ((cfg2.win 2).blk t).view.read (Elt Ideal) (scores V c) := by
  show (cfg2.win 2).cut (grid2.coords t) ((dat2 V c).after 2 t) = _
  rw [after2_2]
  unfold out2_2
  rw [View.canon_unit_zero zeros2_2]
  simp only [View.ld_unit_zero (S := S8000x128) zeros2_2]
  rw [block2_0 V c t, block2_1 V c t, body2_rows]
  obtain ⟨-, -, -, -, e0, e1⟩ := blockAt2 t
  funext y
  show scores V c (ix2 (edgeOf t (y 0)) (y 1)) = scores V c (((cfg2.win 2).blk t).view.emb y)
  refine congrArg (scores V c) (funext fun a => Fin.ext ?_)
  match a with
  | ⟨0, _⟩ =>
    show 8000 * t.val + (y 0).val = win2_2.index t (0 : Fin 2) * 8000 + 1 * (y 0).val
    rw [e0]; omega
  | ⟨1, _⟩ =>
    show (y 1).val = win2_2.index t (1 : Fin 2) * 1 + 1 * (y 1).val
    rw [e1]; omega

/-- An entry of the output array is in point t's block iff each coordinate is in the block's range. -/
theorem mem_block2 (t : Fin cfg2.N) (i : S640000x1.Idx) :
    i ∈ ((cfg2.win 2).blk t).view.set ↔ ∀ a : Fin 2, win2_2.index t a * S8000x1.size a ≤ (i a).val
      ∧ (i a).val < win2_2.index t a * S8000x1.size a + S8000x1.size a := by
  show i ∈ ((View.whole main_v50).slice (win2_2.rect t)).set ↔ _
  rw [View.set_slice_whole, Rect.mem_set_unit]
  exact Iff.rfl

/-- Every entry of the output array is written back by some point: row r by point r / 8000. -/
theorem cover2 (i : S640000x1.Idx) :
    ∃ t : Fin cfg2.N, (cfg2.win 2).flush t = true ∧ i ∈ ((cfg2.win 2).blk t).view.set := by
  have hi0 : (i 0).val < 640000 := (i 0).isLt
  have hi1 : (i 1).val < 1 := (i 1).isLt
  have hN : cfg2.N = 80 := N_2
  refine ⟨⟨(i 0).val / 8000, by rw [hN]; omega⟩, flush2_2 _, ?_⟩
  rw [mem_block2]
  obtain ⟨-, -, -, -, e0, e1⟩ := blockAt2 ⟨(i 0).val / 8000, by rw [hN]; omega⟩
  intro a
  match a with
  | ⟨0, _⟩ =>
    show win2_2.index _ (0 : Fin 2) * 8000 ≤ (i 0).val ∧ (i 0).val < win2_2.index _ (0 : Fin 2) * 8000 + 8000
    rw [e0]
    show (i 0).val / 8000 * 8000 ≤ (i 0).val ∧ (i 0).val < (i 0).val / 8000 * 8000 + 8000
    omega
  | ⟨1, _⟩ =>
    show win2_2.index _ (1 : Fin 2) * 1 ≤ (i 1).val ∧ (i 1).val < win2_2.index _ (1 : Fin 2) * 1 + 1
    rw [e1]
    omega

/-- So after the region its output array holds the host's score column of the arrays it found. -/
theorem final2 (c : Dev nD) : (dat2 V c).arrAt 2 cfg2.N = scores V c :=
  (dat2 V c).arrAt_eq_of_cover 2 (scores V c) (fun t _ => flushed2 V c t) cover2

end Cert.KernelIdeal.Whole

end
-- ==== Proof.Boundaries.lean ====
/-
  The contents of the program's buffers at its boundaries, read back to the launch contents.

  The program alternates stretches of host operations with its three regions. Going through it in order: the first
  stretch computes the in-degrees and the first round's neighbour means; the first region leaves the first round's
  features; the second stretch gathers and averages those (with the in-degrees computed once, before); the second
  region leaves the second round's features; the third stretch gathers them at the scored edges' ends; the third
  region leaves the score column, and the last stretch reshapes the column to a vector. Each buffer read on the
  way is named by the same host expression the reference uses, so the result buffer ends at the whole network of
  the launch contents.
-/
import proofs.«128347_j70875550319063_1_alg».proof.Proof.KernelIdealFrameP
import proofs.«128347_j70875550319063_1_alg».proof.Proof.Gen.ReferenceIdeal
import proofs.«128347_j70875550319063_1_alg».proof.Proof.SageSpec
import proofs.«128347_j70875550319063_1_alg».proof.Proof.Round1
import proofs.«128347_j70875550319063_1_alg».proof.Proof.Round2
import proofs.«128347_j70875550319063_1_alg».proof.Proof.EdgeScore
import Idealize.ShloMosaic.Lib.StableHlo.Run

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.ValueIdx Idealize.SL.Sem
open Idealize.ShloMosaic.StableHlo
open Cert.RowDotLogistic

variable (m : (ℓ : Loc nD τ sig) → Buf (Elt Ideal) ℓ) (ρ : Dev nD → PrngReg) (c : Dev nD)

/-! ## Entering the first region -/

theorem enter1_feat : V1 m ρ c main_arg0 = (m ((c : Thread nD τ).loc main_arg0)) := by
  show StableHlo.after hostOps0 (W0 m ρ c) (Proc.devRef .tc main_arg0) = _
  after_results_simp

theorem enter1_ws : V1 m ρ c main_arg5 = (m ((c : Thread nD τ).loc main_arg5)) := by
  show StableHlo.after hostOps0 (W0 m ρ c) (Proc.devRef .tc main_arg5) = _
  after_results_simp

theorem enter1_wn : V1 m ρ c main_arg6 = (m ((c : Thread nD τ).loc main_arg6)) := by
  show StableHlo.after hostOps0 (W0 m ρ c) (Proc.devRef .tc main_arg6) = _
  after_results_simp

theorem enter1_b : V1 m ρ c main_arg7 = (m ((c : Thread nD τ).loc main_arg7)) := by
  show StableHlo.after hostOps0 (W0 m ρ c) (Proc.devRef .tc main_arg7) = _
  after_results_simp

/-- The second input of the first region is the mean of the launch features over each node's incoming edges. -/
theorem enter1_mean : V1 m ρ c main_v18 = Cert.Sage.neighbourMean (m ((c : Thread nD τ).loc main_arg0)) (m ((c : Thread nD τ).loc main_arg1)) (m ((c : Thread nD τ).loc main_arg2)) := by
  show StableHlo.after hostOps0 (W0 m ρ c) (Proc.devRef .tc main_v18) = _
  after_results_simp
  rfl

/-- The in-degrees, computed once by the first stretch. -/
theorem enter1_degree : W1 m ρ c (Proc.devRef .tc main_v3) = Cert.Sage.degree (m ((c : Thread nD τ).loc main_arg2)) := by
  show StableHlo.after hostOps0 (W0 m ρ c) (Proc.devRef .tc main_v3) = _
  after_results_simp
  rfl

theorem enter1_arg1 : W1 m ρ c (Proc.devRef .tc main_arg1) = (m ((c : Thread nD τ).loc main_arg1)) := by
  show StableHlo.after hostOps0 (W0 m ρ c) (Proc.devRef .tc main_arg1) = _
  after_results_simp

theorem enter1_arg2 : W1 m ρ c (Proc.devRef .tc main_arg2) = (m ((c : Thread nD τ).loc main_arg2)) := by
  show StableHlo.after hostOps0 (W0 m ρ c) (Proc.devRef .tc main_arg2) = _
  after_results_simp

theorem enter1_arg3 : W1 m ρ c (Proc.devRef .tc main_arg3) = (m ((c : Thread nD τ).loc main_arg3)) := by
  show StableHlo.after hostOps0 (W0 m ρ c) (Proc.devRef .tc main_arg3) = _
  after_results_simp

theorem enter1_arg4 : W1 m ρ c (Proc.devRef .tc main_arg4) = (m ((c : Thread nD τ).loc main_arg4)) := by
  show StableHlo.after hostOps0 (W0 m ρ c) (Proc.devRef .tc main_arg4) = _
  after_results_simp

theorem enter1_arg8 : W1 m ρ c (Proc.devRef .tc main_arg8) = (m ((c : Thread nD τ).loc main_arg8)) := by
  show StableHlo.after hostOps0 (W0 m ρ c) (Proc.devRef .tc main_arg8) = _
  after_results_simp

theorem enter1_arg9 : W1 m ρ c (Proc.devRef .tc main_arg9) = (m ((c : Thread nD τ).loc main_arg9)) := by
  show StableHlo.after hostOps0 (W0 m ρ c) (Proc.devRef .tc main_arg9) = _
  after_results_simp

theorem enter1_arg10 : W1 m ρ c (Proc.devRef .tc main_arg10) = (m ((c : Thread nD τ).loc main_arg10)) := by
  show StableHlo.after hostOps0 (W0 m ρ c) (Proc.devRef .tc main_arg10) = _
  after_results_simp

/-! ## After the first region -/

/-- The first region leaves the first round's features. -/
theorem after1_hidden : W2 m ρ c (Proc.devRef .tc main_v19) = (Cert.Sage.hidden1 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) := by
  refine (W2_arr m ρ c 5).trans ?_
  rw [final0 (V1 m ρ) c]
  unfold round1
  rw [enter1_feat, enter1_mean, enter1_ws, enter1_wn, enter1_b]
  rfl

theorem after1_degree : W2 m ρ c (Proc.devRef .tc main_v3) = Cert.Sage.degree (m ((c : Thread nD τ).loc main_arg2)) :=
  (W2_of_ne m ρ c main_v3 (by decide)).trans (enter1_degree m ρ c)
theorem after1_arg1 : W2 m ρ c (Proc.devRef .tc main_arg1) = (m ((c : Thread nD τ).loc main_arg1)) :=
  (W2_of_ne m ρ c main_arg1 (by decide)).trans (enter1_arg1 m ρ c)
theorem after1_arg2 : W2 m ρ c (Proc.devRef .tc main_arg2) = (m ((c : Thread nD τ).loc main_arg2)) :=
  (W2_of_ne m ρ c main_arg2 (by decide)).trans (enter1_arg2 m ρ c)
theorem after1_arg3 : W2 m ρ c (Proc.devRef .tc main_arg3) = (m ((c : Thread nD τ).loc main_arg3)) :=
  (W2_of_ne m ρ c main_arg3 (by decide)).trans (enter1_arg3 m ρ c)
theorem after1_arg4 : W2 m ρ c (Proc.devRef .tc main_arg4) = (m ((c : Thread nD τ).loc main_arg4)) :=
  (W2_of_ne m ρ c main_arg4 (by decide)).trans (enter1_arg4 m ρ c)
theorem after1_arg8 : W2 m ρ c (Proc.devRef .tc main_arg8) = (m ((c : Thread nD τ).loc main_arg8)) :=
  (W2_of_ne m ρ c main_arg8 (by decide)).trans (enter1_arg8 m ρ c)
theorem after1_arg9 : W2 m ρ c (Proc.devRef .tc main_arg9) = (m ((c : Thread nD τ).loc main_arg9)) :=
  (W2_of_ne m ρ c main_arg9 (by decide)).trans (enter1_arg9 m ρ c)
theorem after1_arg10 : W2 m ρ c (Proc.devRef .tc main_arg10) = (m ((c : Thread nD τ).loc main_arg10)) :=
  (W2_of_ne m ρ c main_arg10 (by decide)).trans (enter1_arg10 m ρ c)

/-! ## Entering the second region -/

theorem enter2_feat : V3 m ρ c main_v19 = (Cert.Sage.hidden1 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) := by
  show StableHlo.after hostOps1 (W2 m ρ c) (Proc.devRef .tc main_v19) = _
  after_results_simp
  exact after1_hidden m ρ c

theorem enter2_arg8 : V3 m ρ c main_arg8 = (m ((c : Thread nD τ).loc main_arg8)) := by
  show StableHlo.after hostOps1 (W2 m ρ c) (Proc.devRef .tc main_arg8) = _
  after_results_simp
  exact after1_arg8 m ρ c

theorem enter2_arg9 : V3 m ρ c main_arg9 = (m ((c : Thread nD τ).loc main_arg9)) := by
  show StableHlo.after hostOps1 (W2 m ρ c) (Proc.devRef .tc main_arg9) = _
  after_results_simp
  exact after1_arg9 m ρ c

theorem enter2_arg10 : V3 m ρ c main_arg10 = (m ((c : Thread nD τ).loc main_arg10)) := by
  show StableHlo.after hostOps1 (W2 m ρ c) (Proc.devRef .tc main_arg10) = _
  after_results_simp
  exact after1_arg10 m ρ c

/-- The second input of the second region is the mean of the first round's features over each node's incoming
    edges, the in-degrees being the ones computed before the first region. -/
theorem enter2_mean : V3 m ρ c main_v34 = Cert.Sage.neighbourMean (Cert.Sage.hidden1 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) (m ((c : Thread nD τ).loc main_arg1)) (m ((c : Thread nD τ).loc main_arg2)) := by
  show StableHlo.after hostOps1 (W2 m ρ c) (Proc.devRef .tc main_v34) = _
  after_results_simp
  rw [after1_hidden, after1_arg1, after1_arg2, after1_degree]
  rfl

theorem enter2_arg3 : W3 m ρ c (Proc.devRef .tc main_arg3) = (m ((c : Thread nD τ).loc main_arg3)) := by
  show StableHlo.after hostOps1 (W2 m ρ c) (Proc.devRef .tc main_arg3) = _
  after_results_simp
  exact after1_arg3 m ρ c

theorem enter2_arg4 : W3 m ρ c (Proc.devRef .tc main_arg4) = (m ((c : Thread nD τ).loc main_arg4)) := by
  show StableHlo.after hostOps1 (W2 m ρ c) (Proc.devRef .tc main_arg4) = _
  after_results_simp
  exact after1_arg4 m ρ c

/-! ## After the second region -/

/-- The second region leaves the second round's features. -/
theorem after2_hidden : W4 m ρ c (Proc.devRef .tc main_v35) = (Cert.Sage.hidden2 (Cert.Sage.hidden1 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) (m ((c : Thread nD τ).loc main_arg1)) (m ((c : Thread nD τ).loc main_arg2)) (m ((c : Thread nD τ).loc main_arg8)) (m ((c : Thread nD τ).loc main_arg9)) (m ((c : Thread nD τ).loc main_arg10))) := by
  refine (W4_arr m ρ c 5).trans ?_
  rw [final1 (V3 m ρ) c]
  unfold round2
  rw [enter2_feat, enter2_mean, enter2_arg8, enter2_arg9, enter2_arg10]
  rfl

theorem after2_arg3 : W4 m ρ c (Proc.devRef .tc main_arg3) = (m ((c : Thread nD τ).loc main_arg3)) :=
  (W4_of_ne m ρ c main_arg3 (by decide)).trans (enter2_arg3 m ρ c)
theorem after2_arg4 : W4 m ρ c (Proc.devRef .tc main_arg4) = (m ((c : Thread nD τ).loc main_arg4)) :=
  (W4_of_ne m ρ c main_arg4 (by decide)).trans (enter2_arg4 m ρ c)

/-! ## Entering the third region -/

/-- The third region's inputs are the second round's features gathered at the scored edges' two ends. -/
theorem enter3_src : V5 m ρ c main_v42 = Cert.Sage.rowsAt (Cert.Sage.hidden2 (Cert.Sage.hidden1 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) (m ((c : Thread nD τ).loc main_arg1)) (m ((c : Thread nD τ).loc main_arg2)) (m ((c : Thread nD τ).loc main_arg8)) (m ((c : Thread nD τ).loc main_arg9)) (m ((c : Thread nD τ).loc main_arg10))) (m ((c : Thread nD τ).loc main_arg3)) := by
  show StableHlo.after hostOps2 (W4 m ρ c) (Proc.devRef .tc main_v42) = _
  after_results_simp
  rw [after2_hidden, after2_arg3]
  rfl

theorem enter3_dst : V5 m ρ c main_v49 = Cert.Sage.rowsAt (Cert.Sage.hidden2 (Cert.Sage.hidden1 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) (m ((c : Thread nD τ).loc main_arg1)) (m ((c : Thread nD τ).loc main_arg2)) (m ((c : Thread nD τ).loc main_arg8)) (m ((c : Thread nD τ).loc main_arg9)) (m ((c : Thread nD τ).loc main_arg10))) (m ((c : Thread nD τ).loc main_arg4)) := by
  show StableHlo.after hostOps2 (W4 m ρ c) (Proc.devRef .tc main_v49) = _
  after_results_simp
  rw [after2_hidden, after2_arg4]
  rfl

/-! ## After the third region, and the result -/

/-- The third region leaves the network's scores laid as a column. -/
theorem after3_scores : W6 m ρ c (Proc.devRef .tc main_v50) = asColumn (M := 640000) (Cert.Sage.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W6_arr m ρ c 2).trans ?_
  rw [final2 (V5 m ρ) c]
  unfold scores
  rw [enter3_src, enter3_dst]
  rfl

/-- The result buffer ends at the whole network of the launch contents. -/
theorem result_eq : W7 m ρ c (Proc.devRef .tc main_v51) = (Cert.Sage.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show StableHlo.after hostOps3 (W6 m ρ c) (Proc.devRef .tc main_v51) = _
  after_results_simp
  rw [after3_scores]
  exact reshape_asColumn _ _

end Cert.KernelIdeal.Whole

end
-- ==== Proof.ReferenceValue.lean ====
/-
  The reference's result is the whole network of its launch contents: its run's term is, operation for operation,
  the host expression the network is defined by.
-/
import proofs.«128347_j70875550319063_1_alg».proof.Proof.Gen.ReferenceIdeal.Run
import proofs.«128347_j70875550319063_1_alg».proof.Proof.SageSpec

set_option maxRecDepth 16384

noncomputable section

namespace Cert.ReferenceIdeal.Whole

open Cert.ReferenceIdeal Cert.ReferenceIdeal.Gen Idealize.ShloMosaic Idealize.ShloMosaic.TcCoe Idealize.SL.Sem

theorem result_eq (m : (ℓ : Loc nD τ sig) → Buf (Elt Ideal) ℓ) (c : Dev nD) :
    Cert.ReferenceIdeal.Value.res_main_v72 (F := Ideal) m c
      = Cert.Sage.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  unfold Cert.ReferenceIdeal.Value.res_main_v72
  rfl

end Cert.ReferenceIdeal.Whole

end
-- ==== Proof.lean ====
/-
  Two rounds of mean-aggregating graph convolution followed by a dot-product edge score: a kernel program against
  its plain reference, equal on the extended reals.

  The kernel program keeps the gathers and accumulating scatters of the graph aggregation on the host, exactly as
  the reference spells them, and runs three grid regions: the dense part X · W_self + H · W_neigh + b of each round on
  blocks of 4000 nodes (the first followed by the maximum with zero), and the score 1 / (1 + exp(−⟨h_s, h_d⟩)) on
  blocks of 8000 edges. On the extended reals a change of float format is the identity and the matrix unit's
  product into zeros is the plain sum of products, so each region leaves, row for row, what the host's expression
  gives on the whole arrays; the in-degrees the kernel computes once and the reference twice are one term; and the
  logistic operation is the quotient the reference writes out. No law is used that fails at an infinite entry, so
  the inputs' finiteness is never opened.

  The claims: the three programs run to the end with their arguments unchanged (the word-level kernel and its
  idealization by the frame of their three regions, the reference by its run); the idealization rewrote nothing;
  and the idealized kernel's result buffer and the reference's both end at the network of their launch contents.
-/
import proofs.«128347_j70875550319063_1_alg».proof.Defs
import proofs.«128347_j70875550319063_1_alg».proof.Proof.Gen.Kernel
import proofs.«128347_j70875550319063_1_alg».proof.Proof.Gen.KernelIdeal
import proofs.«128347_j70875550319063_1_alg».proof.Proof.Gen.ReferenceIdeal
import proofs.«128347_j70875550319063_1_alg».proof.Proof.Gen.Pre_finite_inputs
import proofs.«128347_j70875550319063_1_alg».proof.Proof.Gen.ReferenceIdeal.Run
import proofs.«128347_j70875550319063_1_alg».proof.Proof.KernelFrameP
import proofs.«128347_j70875550319063_1_alg».proof.Proof.KernelIdealFrameP
import proofs.«128347_j70875550319063_1_alg».proof.Proof.KernelRun
import proofs.«128347_j70875550319063_1_alg».proof.Proof.Boundaries
import proofs.«128347_j70875550319063_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs to the end, its arguments unchanged. -/
theorem frame_kernel : Cert.frame_Kernel := fun m ρ _ => Cert.Kernel.GenP.frame m ρ

/-- So does its idealization. -/
theorem frame_ideal : Cert.frame_KernelIdeal := fun m ρ _ => Cert.KernelIdeal.GenP.frame m ρ

/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, the idealized kernel's result and the reference's both end at the
    network of the launch contents. -/
theorem algebraic : Cert.algebraic_KernelIdeal_ReferenceIdeal := by
  intro m ρ m' ρ' _ hagree
  refine ⟨fun c => Cert.Sage.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Whole.result_eq m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Whole.result_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
